-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x1 : Shape := ⟨2, ![500000, 1]⟩
abbrev S16000000 : Shape := ⟨1, ![16000000]⟩
abbrev S_ : Shape := ⟨0, ![]⟩

class Facts : Prop where
  bcast_S_S500000x1 : S_.BroadcastsInDim S500000x1 (![] : Fin 0 → Fin S500000x1.rank)
  reducesTo_S500000x1_S_d0_1 : S500000x1.ReducesTo [0, 1] S_
  h_S_ : 0 < S_.numel
  reducesTo_S_S_d : S_.ReducesTo [] S_

variable [Facts]

def fn {F : FTy → Type} [FloatOps F] (main_arg0 : FVec F S500000x1 .f32) (main_arg1 : IVec S16000000 32) (main_arg2 : IVec S16000000 32) (main_arg3 : FVec F S_ .f32) (main_arg4 : FVec F S_ .f32) : IVec S_ 1 :=
  let main_v0 : FVec F S500000x1 .f32 := Host.absf main_arg0
  let main_cst : FVec F S_ .f32 := constant S_ .f32 0x7F800000#32
  let main_v1 : FVec F S500000x1 .f32 := broadcastInDim S500000x1 ![] bcast_S_S500000x1 main_cst
  let main_v2 : IVec S500000x1 1 := cmpf .olt main_v0 main_v1
  let main_c : IVec S_ 1 := constantI S_ 1 1#1
  let main_v3 : IVec S_ 1 := (fun x v => Host.reduce IntOp.andi x v reducesTo_S500000x1_S_d0_1 h_S_) main_v2 main_c
  let main_v4 : FVec F S_ .f32 := Host.absf main_arg3
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S_ .f32 := Host.absf main_arg4
  let main_cst_2 : FVec F S_ .f32 := constant S_ .f32 0x7F800000#32
  let main_v9 : IVec S_ 1 := cmpf .olt main_v8 main_cst_2
  let main_c_3 : IVec S_ 1 := constantI S_ 1 1#1
  let main_v10 : IVec S_ 1 := (fun x v => Host.reduce IntOp.andi x v reducesTo_S_S_d h_S_) main_v9 main_c_3
  let main_v11 : IVec S_ 1 := andi main_v7 main_v10
  main_v11
-- ==== Kernel.lean ====
abbrev S500000x1 : Shape := ⟨2, ![500000, 1]⟩
abbrev S16000000 : Shape := ⟨1, ![16000000]⟩
abbrev S_ : Shape := ⟨0, ![]⟩
abbrev S500000 : Shape := ⟨1, ![500000]⟩
abbrev S16000000x1 : Shape := ⟨2, ![16000000, 1]⟩
abbrev S125000x128 : Shape := ⟨2, ![125000, 128]⟩
abbrev S5000x128 : Shape := ⟨2, ![5000, 128]⟩
abbrev S16000000x3 : Shape := ⟨2, ![16000000, 3]⟩
abbrev S500000x3 : Shape := ⟨2, ![500000, 3]⟩
abbrev S500000x2 : Shape := ⟨2, ![500000, 2]⟩

abbrev nBuf : Space → Nat
  | .hbm => 76
  | .vmem => 6
  | .smem => 0
  | _ => 0

abbrev bufTy : (tb : Table) → Fin (tcTables nBuf tb) → BufTy
  | .hbm, ⟨0, _⟩ => ⟨S500000x1, .f32⟩
  | .hbm, ⟨1, _⟩ => ⟨S16000000, .i32⟩
  | .hbm, ⟨2, _⟩ => ⟨S16000000, .i32⟩
  | .hbm, ⟨3, _⟩ => ⟨S_, .f32⟩
  | .hbm, ⟨4, _⟩ => ⟨S_, .f32⟩
  | .hbm, ⟨5, _⟩ => ⟨S500000, .f32⟩
  | .hbm, ⟨6, _⟩ => ⟨S_, .i32⟩
  | .hbm, ⟨7, _⟩ => ⟨S16000000, .i32⟩
  | .hbm, ⟨8, _⟩ => ⟨S16000000, .i1⟩
  | .hbm, ⟨9, _⟩ => ⟨S_, .i32⟩
  | .hbm, ⟨10, _⟩ => ⟨S16000000, .i32⟩
  | .hbm, ⟨11, _⟩ => ⟨S16000000, .i32⟩
  | .hbm, ⟨12, _⟩ => ⟨S16000000, .i32⟩
  | .hbm, ⟨13, _⟩ => ⟨S16000000x1, .i32⟩
  | .hbm, ⟨14, _⟩ => ⟨S16000000, .f32⟩
  | .hbm, ⟨15, _⟩ => ⟨S_, .i32⟩
  | .hbm, ⟨16, _⟩ => ⟨S16000000, .i32⟩
  | .hbm, ⟨17, _⟩ => ⟨S16000000, .i1⟩
  | .hbm, ⟨18, _⟩ => ⟨S_, .i32⟩
  | .hbm, ⟨19, _⟩ => ⟨S16000000, .i32⟩
  | .hbm, ⟨20, _⟩ => ⟨S16000000, .i32⟩
  | .hbm, ⟨21, _⟩ => ⟨S16000000, .i32⟩
  | .hbm, ⟨22, _⟩ => ⟨S16000000x1, .i32⟩
  | .hbm, ⟨23, _⟩ => ⟨S16000000, .f32⟩
  | .hbm, ⟨24, _⟩ => ⟨S16000000, .f32⟩
  | .hbm, ⟨25, _⟩ => ⟨S_, .f32⟩
  | .hbm, ⟨26, _⟩ => ⟨S16000000, .f32⟩
  | .hbm, ⟨27, _⟩ => ⟨S16000000, .f32⟩
  | .hbm, ⟨28, _⟩ => ⟨S125000x128, .f32⟩
  | .hbm, ⟨29, _⟩ => ⟨S125000x128, .f32⟩
  | .hbm, ⟨30, _⟩ => ⟨S125000x128, .f32⟩
  | .hbm, ⟨31, _⟩ => ⟨S16000000, .f32⟩
  | .hbm, ⟨32, _⟩ => ⟨S16000000, .f32⟩
  | .hbm, ⟨33, _⟩ => ⟨S_, .f32⟩
  | .hbm, ⟨34, _⟩ => ⟨S16000000, .f32⟩
  | .hbm, ⟨35, _⟩ => ⟨S16000000x1, .f32⟩
  | .hbm, ⟨36, _⟩ => ⟨S16000000x1, .f32⟩
  | .hbm, ⟨37, _⟩ => ⟨S16000000x1, .f32⟩
  | .hbm, ⟨38, _⟩ => ⟨S16000000x3, .f32⟩
  | .hbm, ⟨39, _⟩ => ⟨S_, .f32⟩
  | .hbm, ⟨40, _⟩ => ⟨S500000x3, .f32⟩
  | .hbm, ⟨41, _⟩ => ⟨S16000000x1, .i32⟩
  | .hbm, ⟨42, _⟩ => ⟨S500000x3, .f32⟩
  | .hbm, ⟨43, _⟩ => ⟨S500000x1, .f32⟩
  | .hbm, ⟨44, _⟩ => ⟨S500000, .f32⟩
  | .hbm, ⟨45, _⟩ => ⟨S500000x1, .f32⟩
  | .hbm, ⟨46, _⟩ => ⟨S500000, .f32⟩
  | .hbm, ⟨47, _⟩ => ⟨S500000x1, .f32⟩
  | .hbm, ⟨48, _⟩ => ⟨S500000, .f32⟩
  | .hbm, ⟨49, _⟩ => ⟨S500000x1, .f32⟩
  | .hbm, ⟨50, _⟩ => ⟨S500000x1, .f32⟩
  | .hbm, ⟨51, _⟩ => ⟨S500000x2, .f32⟩
  | .hbm, ⟨52, _⟩ => ⟨S_, .f32⟩
  | .hbm, ⟨53, _⟩ => ⟨S500000, .f32⟩
  | .hbm, ⟨54, _⟩ => ⟨S500000, .f32⟩
  | .hbm, ⟨55, _⟩ => ⟨S500000x1, .f32⟩
  | .hbm, ⟨56, _⟩ => ⟨S500000x2, .f32⟩
  | .hbm, ⟨57, _⟩ => ⟨S500000x2, .f32⟩
  | .hbm, ⟨58, _⟩ => ⟨S500000x2, .f32⟩
  | .hbm, ⟨59, _⟩ => ⟨S_, .f32⟩
  | .hbm, ⟨60, _⟩ => ⟨S500000, .f32⟩
  | .hbm, ⟨61, _⟩ => ⟨S500000x1, .f32⟩
  | .hbm, ⟨62, _⟩ => ⟨S500000x1, .f32⟩
  | .hbm, ⟨63, _⟩ => ⟨S_, .f32⟩
  | .hbm, ⟨64, _⟩ => ⟨S500000x1, .f32⟩
  | .hbm, ⟨65, _⟩ => ⟨S500000x1, .f32⟩
  | .hbm, ⟨66, _⟩ => ⟨S500000x2, .f32⟩
  | .hbm, ⟨67, _⟩ => ⟨S500000x2, .f32⟩
  | .hbm, ⟨68, _⟩ => ⟨S500000x1, .f32⟩
  | .hbm, ⟨69, _⟩ => ⟨S500000x1, .f32⟩
  | .hbm, ⟨70, _⟩ => ⟨S500000x1, .f32⟩
  | .hbm, ⟨71, _⟩ => ⟨S500000x1, .f32⟩
  | .hbm, ⟨72, _⟩ => ⟨S500000x1, .f32⟩
  | .hbm, ⟨73, _⟩ => ⟨S500000x2, .f32⟩
  | .hbm, ⟨74, _⟩ => ⟨S500000x2, .f32⟩
  | .hbm, ⟨75, _⟩ => ⟨S500000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | _, _ => ⟨S500000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call0_v0 : Ref sig .tc := ⟨.hbm, 58, rfl⟩
abbrev main_call0_cst : Ref sig .tc := ⟨.hbm, 59, rfl⟩
abbrev main_call0_v1 : Ref sig .tc := ⟨.hbm, 60, rfl⟩
abbrev main_call0_v2 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S500000x1_S500000 : S500000x1.ShapeCasts S500000
  bcast_S_S16000000 : S_.BroadcastsInDim S16000000 (![] : Fin 0 → Fin S16000000.rank)
  bcast_S16000000_S16000000x1_0 : S16000000.BroadcastsInDim S16000000x1 (![0] : Fin 1 → Fin S16000000x1.rank)
  shapeCasts_S16000000_S125000x128 : S16000000.ShapeCasts S125000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S125000x128_S16000000 : S125000x128.ShapeCasts S16000000
  concatenates_S16000000x1_S16000000x1_S16000000x1_S16000000x3_d1 : Shape.Concatenates [S16000000x1, S16000000x1, S16000000x1] S16000000x3 1
  bcast_S_S500000x3 : S_.BroadcastsInDim S500000x3 (![] : Fin 0 → Fin S500000x3.rank)
  slices_S500000x3_S500000x1_0_0 : S500000x3.Slices ![0, 0] S500000x1
  slices_S500000x3_S500000x1_0_1 : S500000x3.Slices ![0, 1] S500000x1
  slices_S500000x3_S500000x1_0_2 : S500000x3.Slices ![0, 2] S500000x1
  bcast_S500000_S500000x1_0 : S500000.BroadcastsInDim S500000x1 (![0] : Fin 1 → Fin S500000x1.rank)
  concatenates_S500000x1_S500000x1_S500000x2_d1 : Shape.Concatenates [S500000x1, S500000x1] S500000x2 1
  bcast_S_S500000 : S_.BroadcastsInDim S500000 (![] : Fin 0 → Fin S500000.rank)
  bcast_S500000x1_S500000x2_0_1 : S500000x1.BroadcastsInDim S500000x2 (![0, 1] : Fin 2 → Fin S500000x2.rank)
  reducesTo_S500000x2_S500000_d1 : S500000x2.ReducesTo [1] S500000
  h_S_ : 0 < S_.numel
  bcast_S_S500000x1 : S_.BroadcastsInDim S500000x1 (![] : Fin 0 → Fin S500000x1.rank)
  slices_S500000x2_S500000x1_0_1 : S500000x2.Slices ![0, 1] S500000x1
  bcast_S_S500000x2 : S_.BroadcastsInDim S500000x2 (![] : Fin 0 → Fin S500000x2.rank)
  gather_S500000_S16000000x1_S16000000_n_0_n_n_0_1_1_wf : GatherDims.WF S500000 S16000000x1 S16000000 [] [0] [] [0] [] 1 ![1]
  scatter_S500000x3_S16000000x1_S16000000x3_1_0_0_1_wf : ScatterDims.WF S500000x3 S16000000x1 S16000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S125000x128.size a
  hwx0_0 : ∀ i : grid0.Coords, EltTy.bits .f32 = 32 ∨ (Rect.block (s := S125000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S125000x128.size a
  hwx0_1 : ∀ i : grid0.Coords, EltTy.bits .f32 = 32 ∨ (Rect.block (s := S125000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S125000x128.size a
  hwx0_2 : ∀ i : grid0.Coords, EltTy.bits .f32 = 32 ∨ (Rect.block (s := S125000x128) S5000x128.size (cc0_transform_2 i) (hinb0_2 i)).WholeWords (EltTy.packing .f32)

variable [Facts₀]

def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def scatter_S500000x3_S16000000x1_S16000000x3_1_0_0_1 : ScatterDims S500000x3 S16000000x1 S16000000x3 where
  updateWindowDims := [1]
  insertedWindowDims := [0]
  scatterDimsToOperandDims := [0]
  indexVectorDim := 1
  wf := scatter_S500000x3_S16000000x1_S16000000x3_1_0_0_1_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19_0) S5000x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19_1) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000x1 : Shape := ⟨2, ![500000, 1]⟩
abbrev S16000000 : Shape := ⟨1, ![16000000]⟩
abbrev S_ : Shape := ⟨0, ![]⟩
abbrev S500000x2 : Shape := ⟨2, ![500000, 2]⟩
abbrev S16000000x1 : Shape := ⟨2, ![16000000, 1]⟩
abbrev S16000000x2 : Shape := ⟨2, ![16000000, 2]⟩
abbrev S500000 : Shape := ⟨1, ![500000]⟩

abbrev nBuf : Space → Nat
  | .hbm => 76
  | .vmem => 0
  | .smem => 0
  | _ => 0

abbrev bufTy : (tb : Table) → Fin (tcTables nBuf tb) → BufTy
  | .hbm, ⟨0, _⟩ => ⟨S500000x1, .f32⟩
  | .hbm, ⟨1, _⟩ => ⟨S16000000, .i32⟩
  | .hbm, ⟨2, _⟩ => ⟨S16000000, .i32⟩
  | .hbm, ⟨3, _⟩ => ⟨S_, .f32⟩
  | .hbm, ⟨4, _⟩ => ⟨S_, .f32⟩
  | .hbm, ⟨5, _⟩ => ⟨S500000x1, .f32⟩
  | .hbm, ⟨6, _⟩ => ⟨S500000x1, .f32⟩
  | .hbm, ⟨7, _⟩ => ⟨S500000x2, .f32⟩
  | .hbm, ⟨8, _⟩ => ⟨S500000x2, .f32⟩
  | .hbm, ⟨9, _⟩ => ⟨S500000x2, .f32⟩
  | .hbm, ⟨10, _⟩ => ⟨S_, .i32⟩
  | .hbm, ⟨11, _⟩ => ⟨S16000000, .i32⟩
  | .hbm, ⟨12, _⟩ => ⟨S16000000, .i1⟩
  | .hbm, ⟨13, _⟩ => ⟨S_, .i32⟩
  | .hbm, ⟨14, _⟩ => ⟨S16000000, .i32⟩
  | .hbm, ⟨15, _⟩ => ⟨S16000000, .i32⟩
  | .hbm, ⟨16, _⟩ => ⟨S16000000, .i32⟩
  | .hbm, ⟨17, _⟩ => ⟨S_, .i32⟩
  | .hbm, ⟨18, _⟩ => ⟨S16000000, .i32⟩
  | .hbm, ⟨19, _⟩ => ⟨S16000000, .i32⟩
  | .hbm, ⟨20, _⟩ => ⟨S16000000x1, .i32⟩
  | .hbm, ⟨21, _⟩ => ⟨S16000000x1, .i32⟩
  | .hbm, ⟨22, _⟩ => ⟨S16000000x2, .i32⟩
  | .hbm, ⟨23, _⟩ => ⟨S16000000, .f32⟩
  | .hbm, ⟨24, _⟩ => ⟨S_, .i32⟩
  | .hbm, ⟨25, _⟩ => ⟨S16000000, .i32⟩
  | .hbm, ⟨26, _⟩ => ⟨S16000000, .i1⟩
  | .hbm, ⟨27, _⟩ => ⟨S_, .i32⟩
  | .hbm, ⟨28, _⟩ => ⟨S16000000, .i32⟩
  | .hbm, ⟨29, _⟩ => ⟨S16000000, .i32⟩
  | .hbm, ⟨30, _⟩ => ⟨S16000000, .i32⟩
  | .hbm, ⟨31, _⟩ => ⟨S_, .i32⟩
  | .hbm, ⟨32, _⟩ => ⟨S16000000, .i32⟩
  | .hbm, ⟨33, _⟩ => ⟨S16000000, .i32⟩
  | .hbm, ⟨34, _⟩ => ⟨S16000000x1, .i32⟩
  | .hbm, ⟨35, _⟩ => ⟨S16000000x1, .i32⟩
  | .hbm, ⟨36, _⟩ => ⟨S16000000x2, .i32⟩
  | .hbm, ⟨37, _⟩ => ⟨S16000000, .f32⟩
  | .hbm, ⟨38, _⟩ => ⟨S16000000, .f32⟩
  | .hbm, ⟨39, _⟩ => ⟨S_, .f32⟩
  | .hbm, ⟨40, _⟩ => ⟨S16000000, .f32⟩
  | .hbm, ⟨41, _⟩ => ⟨S16000000, .f32⟩
  | .hbm, ⟨42, _⟩ => ⟨S16000000, .f32⟩
  | .hbm, ⟨43, _⟩ => ⟨S16000000, .f32⟩
  | .hbm, ⟨44, _⟩ => ⟨S16000000x1, .f32⟩
  | .hbm, ⟨45, _⟩ => ⟨S16000000x1, .f32⟩
  | .hbm, ⟨46, _⟩ => ⟨S16000000x2, .f32⟩
  | .hbm, ⟨47, _⟩ => ⟨S_, .f32⟩
  | .hbm, ⟨48, _⟩ => ⟨S500000x2, .f32⟩
  | .hbm, ⟨49, _⟩ => ⟨S16000000x1, .i32⟩
  | .hbm, ⟨50, _⟩ => ⟨S500000x2, .f32⟩
  | .hbm, ⟨51, _⟩ => ⟨S_, .f32⟩
  | .hbm, ⟨52, _⟩ => ⟨S16000000, .f32⟩
  | .hbm, ⟨53, _⟩ => ⟨S_, .f32⟩
  | .hbm, ⟨54, _⟩ => ⟨S500000, .f32⟩
  | .hbm, ⟨55, _⟩ => ⟨S16000000x1, .i32⟩
  | .hbm, ⟨56, _⟩ => ⟨S500000, .f32⟩
  | .hbm, ⟨57, _⟩ => ⟨S_, .f32⟩
  | .hbm, ⟨58, _⟩ => ⟨S500000, .f32⟩
  | .hbm, ⟨59, _⟩ => ⟨S500000, .f32⟩
  | .hbm, ⟨60, _⟩ => ⟨S500000x1, .f32⟩
  | .hbm, ⟨61, _⟩ => ⟨S500000x2, .f32⟩
  | .hbm, ⟨62, _⟩ => ⟨S500000x2, .f32⟩
  | .hbm, ⟨63, _⟩ => ⟨S500000x2, .f32⟩
  | .hbm, ⟨64, _⟩ => ⟨S_, .f32⟩
  | .hbm, ⟨65, _⟩ => ⟨S500000, .f32⟩
  | .hbm, ⟨66, _⟩ => ⟨S500000x1, .f32⟩
  | .hbm, ⟨67, _⟩ => ⟨S500000x1, .f32⟩
  | .hbm, ⟨68, _⟩ => ⟨S_, .f32⟩
  | .hbm, ⟨69, _⟩ => ⟨S500000x1, .f32⟩
  | .hbm, ⟨70, _⟩ => ⟨S500000x1, .f32⟩
  | .hbm, ⟨71, _⟩ => ⟨S500000x2, .f32⟩
  | .hbm, ⟨72, _⟩ => ⟨S500000x2, .f32⟩
  | .hbm, ⟨73, _⟩ => ⟨S500000x1, .f32⟩
  | .hbm, ⟨74, _⟩ => ⟨S500000x1, .f32⟩
  | .hbm, ⟨75, _⟩ => ⟨S500000x1, .f32⟩
  | _, _ => ⟨S500000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_call0_v0 : Ref sig .tc := ⟨.hbm, 63, rfl⟩
abbrev main_call0_cst : Ref sig .tc := ⟨.hbm, 64, rfl⟩
abbrev main_call0_v1 : Ref sig .tc := ⟨.hbm, 65, rfl⟩
abbrev main_call0_v2 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]

class Facts₀ : Prop where
  concatenates_S500000x1_S500000x1_S500000x2_d1 : Shape.Concatenates [S500000x1, S500000x1] S500000x2 1
  bcast_S_S500000x2 : S_.BroadcastsInDim S500000x2 (![] : Fin 0 → Fin S500000x2.rank)
  bcast_S_S16000000 : S_.BroadcastsInDim S16000000 (![] : Fin 0 → Fin S16000000.rank)
  bcast_S16000000_S16000000x1_0 : S16000000.BroadcastsInDim S16000000x1 (![0] : Fin 1 → Fin S16000000x1.rank)
  concatenates_S16000000x1_S16000000x1_S16000000x2_d1 : Shape.Concatenates [S16000000x1, S16000000x1] S16000000x2 1
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x2_0_1 : S500000x1.BroadcastsInDim S500000x2 (![0, 1] : Fin 2 → Fin S500000x2.rank)
  reducesTo_S500000x2_S500000_d1 : S500000x2.ReducesTo [1] S500000
  h_S_ : 0 < S_.numel
  bcast_S_S500000x1 : S_.BroadcastsInDim S500000x1 (![] : Fin 0 → Fin S500000x1.rank)
  slices_S500000x2_S500000x1_0_1 : S500000x2.Slices ![0, 1] S500000x1
  gather_S500000x1_S16000000x2_S16000000_n_01_n_n_01_1_11_wf : GatherDims.WF S500000x1 S16000000x2 S16000000 [] [0, 1] [] [0, 1] [] 1 ![1, 1]
  scatter_S500000x2_S16000000x1_S16000000x2_1_0_0_1_wf : ScatterDims.WF S500000x2 S16000000x1 S16000000x2 [1] [0] [0] 1
  scatter_S500000_S16000000x1_S16000000_n_0_0_1_wf : ScatterDims.WF S500000 S16000000x1 S16000000 [] [0] [0] 1

variable [Facts₀]

def gather_S500000x1_S16000000x2_S16000000_n_01_n_n_01_1_11 : GatherDims S500000x1 S16000000x2 S16000000 where
  offsetDims := []
  collapsedSliceDims := [0, 1]
  operandBatchingDims := []
  startIndicesBatchingDims := []
  startIndexMap := [0, 1]
  indexVectorDim := 1
  sliceSizes := ![1, 1]
  wf := gather_S500000x1_S16000000x2_S16000000_n_01_n_n_01_1_11_wf
def scatter_S500000x2_S16000000x1_S16000000x2_1_0_0_1 : ScatterDims S500000x2 S16000000x1 S16000000x2 where
  updateWindowDims := [1]
  insertedWindowDims := [0]
  scatterDimsToOperandDims := [0]
  indexVectorDim := 1
  wf := scatter_S500000x2_S16000000x1_S16000000x2_1_0_0_1_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf

class Facts : Prop extends Facts₀ where

variable [Facts]
-- ==== Proof.RegionWord.lean ====
/-
  The edge-message program as a run.

  @main is three stretches: host operations that form, per edge e, the angle difference
  d(e) = (θ[src e] − θ[dst e]) · 1 and lay the 16 000 000 differences out as a 125000 × 128 matrix; one region of 25
  grid points, point t owning rows 5000·t … 5000·t + 4999 of that matrix, whose body reads its block x and writes
  cos x into the block of the first result and sin x into the block of the second; and host operations that flatten the
  two results, accumulate them per destination node and normalise.

  Here: the contents the region finds (the first stretch applied to the launch memory), the body's triple — from the
  input block x at any contents and the two output blocks at anything, it ends with x kept, cos x and sin x stored —,
  the proof data of the pipeline (after point t the three staging buffers hold block t of the matrix, its cosine and
  its sine), and the run: every weakly fair execution terminates with the two result matrices at what the 25 points
  wrote back and every other buffer at what the last stretch computes from them.  The argument arrays are written by no
  operation, so they end as launched.  Everything is stated for any float instance.
-/
import proofs.«125133_j10599979287287_2_alg».proof.Proof.Gen.Kernel.Launch
import proofs.«125133_j10599979287287_2_alg».proof.Proof.Gen.Kernel.Skeleton
import proofs.«125133_j10599979287287_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three stretches of @main -/

/-- The host operations after the region, stretch by stretch: the accumulation and the division by the count, the
    Euclidean norm (a called function), the normalisation and the two products. -/
abbrev tailOps : List (List (HloOp τ sig (Elt F))) := [hostOps1, hostOps1_1, hostOps1_2]

/-- What core `c`'s buffers hold when the region is entered: the first stretch applied to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the first stretch, the region, and the last three stretches as the region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The operations after the region touch only the region's three arrays and buffers the region never sees. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- Each writes its own result buffer only, and none of those is the difference matrix or one of the two results. -/
theorem tail_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.nary_writes, StableHlo.reshape_writes, Finset.mem_singleton] <;> exact StableHlo.devRef_ne_of_ne (by decide)
  · simp only [hostOps1_1, List.mem_cons, List.mem_nil_iff, or_false] at hop
    rcases hop with rfl | rfl | rfl | rfl | rfl
    all_goals intro w; fin_cases w <;> simp only [StableHlo.nullary_writes, StableHlo.unary_writes, StableHlo.binary_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl
    all_goals intro w; fin_cases w <;> simp only [StableHlo.nullary_writes, StableHlo.unary_writes, StableHlo.binary_writes, Finset.mem_singleton] <;> exact StableHlo.devRef_ne_of_ne (by decide)

/-! ## The argument arrays are written by nothing -/

/-- No operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No operation after the region writes argument 0 either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No operation after the region writes argument 1 either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No operation after the region writes argument 2 either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No operation after the region writes argument 3 either: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [tailOps, hostOps1, hostOps1_1, hostOps1_2, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No operation after the region writes argument 4 either: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [tailOps, hostOps1, hostOps1_1, hostOps1_2, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The blocks -/

/-- Window `w`'s block at point `t` of the array the region finds: for the difference matrix, rows 5000·t … 5000·t + 4999. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input's staging buffer holds block `t` of the difference matrix at every point `t` (it is fetched at every point),
    for any proof data over the arrays the region finds whose body leaves the input block in place. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The body's three accesses all go through the whole 5000 × 128 block: the offsets are zero. -/
theorem offs_zero : (![0, 0] : Fin S5000x128.rank → Nat) = fun _ => 0 := by
  funext a; fin_cases a <;> rfl

/-- One store through the whole block covers the block. -/
theorem whole_cover {S : Shape} {e : EltTy} {off : Fin S.rank → Nat} (h : off = fun _ => 0)
    (inb : ∀ a, off a + S.size a ≤ S.size a) (p : S.Idx → Elt F e) (y : S.Idx) :
    ∃ pc ∈ ([⟨Rect.unit off S.size inb, p⟩] : List (View.Piece (Elt F) S e)), y ∈ pc.1.set := by
  subst h
  exact ⟨_, List.mem_singleton_self _, by show y ∈ (Rect.whole S).set; rw [Rect.set_whole]; exact Finset.mem_univ y⟩

set_option maxHeartbeats 1000000 in
/-- The body on whole staging memrefs, the input's at contents `x` and the two outputs' at anything: it ends with the
    input's as it was, the first output's at the cosine of `x` and the second's at the sine of `x` (the skeleton's
    payloads), element by element.  The two loads of the output buffers read values the body never uses. -/
theorem sound_kernel (c : Dev nD) (E : Set ℕ) (i : grid0.Coords) (arg1 : Memref sig .tc .vmem S5000x128 .f32) (harg1 : arg1.IsWhole)
    (arg2 : Memref sig .tc .vmem S5000x128 .f32) (harg2 : arg2.IsWhole) (arg3 : Memref sig .tc .vmem S5000x128 .f32) (harg3 : arg3.IsWhole)
    (x : Vec F S5000x128 .f32) (K : PUnit → sProp 𝕄) :
    iprop(owns (c : Thread nD τ) arg1 fullShare x ∗ (∃ d, owns (c : Thread nD τ) arg2 fullShare d) ∗ (∃ d, owns (c : Thread nD τ) arg3 fullShare d)
        ∗ (iprop(owns (c : Thread nD τ) arg1 fullShare x ∗ owns (c : Thread nD τ) arg2 fullShare (k0_pay2 x)
            ∗ owns (c : Thread nD τ) arg3 fullShare (k0_pay3 x)) -∗ K ⟨⟩))
      ⊢ wp frame (wpE (defs₀ (F := F)) Variants.none c none) E (cc0__edge_msg_kernel i arg1 harg1 arg2 harg2 arg3 harg3) K := by
  simp only [cc0__edge_msg_kernel_eq_skeleton]; unfold cc0__edge_msg_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    rw [View.read_writes_eq_canon _ _ _ (whole_cover offs_zero _ _), View.canon_unit_zero offs_zero, View.readAt_eq_ld,
      View.ld_unit_zero offs_zero]
  · iexists _; isplitr
    swap; · iexact H2
    ipureintro
    rw [View.read_writes_eq_canon _ _ _ (whole_cover offs_zero _ _), View.canon_unit_zero offs_zero, View.readAt_eq_ld,
      View.ld_unit_zero offs_zero]

/-! ## The pipeline's proof data -/

/-- The proof data of the one pipeline on core `c`: the arrays as the region finds them; after the body at point `t` the
    input's buffer at block `t` of the difference matrix, the first output's at its cosine, the second's at its sine;
    the invariant the scoped rest and the random-number generator's register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => k0_pay2 (iblk m c 0 t)
    | ⟨2, _⟩ => k0_pay3 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_cos (c : Dev nD) (t : Fin cfg0.N) : (dats m 0 c).after 1 t = k0_pay2 (iblk m c 0 t) := by dsimp only [dats]
theorem after_sin (c : Dev nD) (t : Fin cfg0.N) : (dats m 0 c).after 2 t = k0_pay3 (iblk m c 0 t) := by dsimp only [dats]

theorem before_in (c : Dev nD) (t : Fin cfg0.N) (d) : (dats m 0 c).before 0 t d = iblk m c 0 t :=
  before_in_of m (dats m 0 c) (A_eq m c 0) (after_in m c) t d

/-! ## The body obligation -/

/-- What the body is called with at point `t`, the three windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input's memref holds block `t`, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_cos, after_sin]
  iintro ⟨HΦ, Ho, ⟨%d0, H0⟩, ⟨%d1, H1⟩, ⟨%d2, H2⟩⟩
  iapply (sound_kernel c Set.univ (grid0.coords t) _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, and every final state has the
    difference matrix and the two results at what the library computes from the proof data (each result: block `t`
    overwritten by what point `t` left) and every other unscoped buffer as the last stretches leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- What the run says of a buffer that is none of the three arrays. -/
theorem rest_of_run {r : PUnit × MemSt nD τ sig (Elt F)}
    (h : Pipeline.FramePost cfgs (dats m) 0 (Pipeline.afterTail₀ cfgs (dats m) 0 (V0 m) tailOps) r) (c : Dev nD) (b : Ref sig .tc)
    (hs : b.isScoped = false) (ha : ∀ w, (spec0 w).arr.view.ref ≠ b) :
    r.2.mem ((c.tc : Thread nD τ).loc b) = Pipeline.afterTail₀ cfgs (dats m) 0 (V0 m) tailOps c b :=
  (h c).2 b (Pipeline.mem_restRefs_of b hs ha)

/-- THE FRAME: every weakly fair execution terminates, nothing faults, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(rest_of_run m h c main_arg0 (by decide) (by decide)).trans (W_main_arg0 m (dats m) c),
     (rest_of_run m h c main_arg1 (by decide) (by decide)).trans (W_main_arg1 m (dats m) c),
     (rest_of_run m h c main_arg2 (by decide) (by decide)).trans (W_main_arg2 m (dats m) c),
     (rest_of_run m h c main_arg3 (by decide) (by decide)).trans (W_main_arg3 m (dats m) c),
     (rest_of_run m h c main_arg4 (by decide) (by decide)).trans (W_main_arg4 m (dats m) c)⟩) (run_main m ρ)

end Cert.Kernel.Region

end
-- ==== Proof.RegionIdeal.lean ====
/-
  The edge-message program as a run.

  @main is three stretches: host operations that form, per edge e, the angle difference
  d(e) = (θ[src e] − θ[dst e]) · 1 and lay the 16 000 000 differences out as a 125000 × 128 matrix; one region of 25
  grid points, point t owning rows 5000·t … 5000·t + 4999 of that matrix, whose body reads its block x and writes
  cos x into the block of the first result and sin x into the block of the second; and host operations that flatten the
  two results, accumulate them per destination node and normalise.

  Here: the contents the region finds (the first stretch applied to the launch memory), the body's triple — from the
  input block x at any contents and the two output blocks at anything, it ends with x kept, cos x and sin x stored —,
  the proof data of the pipeline (after point t the three staging buffers hold block t of the matrix, its cosine and
  its sine), and the run: every weakly fair execution terminates with the two result matrices at what the 25 points
  wrote back and every other buffer at what the last stretch computes from them.  The argument arrays are written by no
  operation, so they end as launched.  Everything is stated for any float instance.
-/
import proofs.«125133_j10599979287287_2_alg».proof.Proof.Gen.KernelIdeal.Launch
import proofs.«125133_j10599979287287_2_alg».proof.Proof.Gen.KernelIdeal.Skeleton
import proofs.«125133_j10599979287287_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three stretches of @main -/

/-- The host operations after the region, stretch by stretch: the accumulation and the division by the count, the
    Euclidean norm (a called function), the normalisation and the two products. -/
abbrev tailOps : List (List (HloOp τ sig (Elt F))) := [hostOps1, hostOps1_1, hostOps1_2]

/-- What core `c`'s buffers hold when the region is entered: the first stretch applied to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the first stretch, the region, and the last three stretches as the region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The operations after the region touch only the region's three arrays and buffers the region never sees. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- Each writes its own result buffer only, and none of those is the difference matrix or one of the two results. -/
theorem tail_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.nary_writes, StableHlo.reshape_writes, Finset.mem_singleton] <;> exact StableHlo.devRef_ne_of_ne (by decide)
  · simp only [hostOps1_1, List.mem_cons, List.mem_nil_iff, or_false] at hop
    rcases hop with rfl | rfl | rfl | rfl | rfl
    all_goals intro w; fin_cases w <;> simp only [StableHlo.nullary_writes, StableHlo.unary_writes, StableHlo.binary_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl
    all_goals intro w; fin_cases w <;> simp only [StableHlo.nullary_writes, StableHlo.unary_writes, StableHlo.binary_writes, Finset.mem_singleton] <;> exact StableHlo.devRef_ne_of_ne (by decide)

/-! ## The argument arrays are written by nothing -/

/-- No operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No operation after the region writes argument 0 either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No operation after the region writes argument 1 either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No operation after the region writes argument 2 either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No operation after the region writes argument 3 either: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [tailOps, hostOps1, hostOps1_1, hostOps1_2, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No operation after the region writes argument 4 either: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [tailOps, hostOps1, hostOps1_1, hostOps1_2, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The blocks -/

/-- Window `w`'s block at point `t` of the array the region finds: for the difference matrix, rows 5000·t … 5000·t + 4999. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input's staging buffer holds block `t` of the difference matrix at every point `t` (it is fetched at every point),
    for any proof data over the arrays the region finds whose body leaves the input block in place. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The body's three accesses all go through the whole 5000 × 128 block: the offsets are zero. -/
theorem offs_zero : (![0, 0] : Fin S5000x128.rank → Nat) = fun _ => 0 := by
  funext a; fin_cases a <;> rfl

/-- One store through the whole block covers the block. -/
theorem whole_cover {S : Shape} {e : EltTy} {off : Fin S.rank → Nat} (h : off = fun _ => 0)
    (inb : ∀ a, off a + S.size a ≤ S.size a) (p : S.Idx → Elt F e) (y : S.Idx) :
    ∃ pc ∈ ([⟨Rect.unit off S.size inb, p⟩] : List (View.Piece (Elt F) S e)), y ∈ pc.1.set := by
  subst h
  exact ⟨_, List.mem_singleton_self _, by show y ∈ (Rect.whole S).set; rw [Rect.set_whole]; exact Finset.mem_univ y⟩

set_option maxHeartbeats 1000000 in
/-- The body on whole staging memrefs, the input's at contents `x` and the two outputs' at anything: it ends with the
    input's as it was, the first output's at the cosine of `x` and the second's at the sine of `x` (the skeleton's
    payloads), element by element.  The two loads of the output buffers read values the body never uses. -/
theorem sound_kernel (c : Dev nD) (E : Set ℕ) (i : grid0.Coords) (arg1 : Memref sig .tc .vmem S5000x128 .f32) (harg1 : arg1.IsWhole)
    (arg2 : Memref sig .tc .vmem S5000x128 .f32) (harg2 : arg2.IsWhole) (arg3 : Memref sig .tc .vmem S5000x128 .f32) (harg3 : arg3.IsWhole)
    (x : Vec F S5000x128 .f32) (K : PUnit → sProp 𝕄) :
    iprop(owns (c : Thread nD τ) arg1 fullShare x ∗ (∃ d, owns (c : Thread nD τ) arg2 fullShare d) ∗ (∃ d, owns (c : Thread nD τ) arg3 fullShare d)
        ∗ (iprop(owns (c : Thread nD τ) arg1 fullShare x ∗ owns (c : Thread nD τ) arg2 fullShare (k0_pay2 x)
            ∗ owns (c : Thread nD τ) arg3 fullShare (k0_pay3 x)) -∗ K ⟨⟩))
      ⊢ wp frame (wpE (defs₀ (F := F)) Variants.none c none) E (cc0__edge_msg_kernel i arg1 harg1 arg2 harg2 arg3 harg3) K := by
  simp only [cc0__edge_msg_kernel_eq_skeleton]; unfold cc0__edge_msg_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    rw [View.read_writes_eq_canon _ _ _ (whole_cover offs_zero _ _), View.canon_unit_zero offs_zero, View.readAt_eq_ld,
      View.ld_unit_zero offs_zero]
  · iexists _; isplitr
    swap; · iexact H2
    ipureintro
    rw [View.read_writes_eq_canon _ _ _ (whole_cover offs_zero _ _), View.canon_unit_zero offs_zero, View.readAt_eq_ld,
      View.ld_unit_zero offs_zero]

/-! ## The pipeline's proof data -/

/-- The proof data of the one pipeline on core `c`: the arrays as the region finds them; after the body at point `t` the
    input's buffer at block `t` of the difference matrix, the first output's at its cosine, the second's at its sine;
    the invariant the scoped rest and the random-number generator's register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => k0_pay2 (iblk m c 0 t)
    | ⟨2, _⟩ => k0_pay3 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_cos (c : Dev nD) (t : Fin cfg0.N) : (dats m 0 c).after 1 t = k0_pay2 (iblk m c 0 t) := by dsimp only [dats]
theorem after_sin (c : Dev nD) (t : Fin cfg0.N) : (dats m 0 c).after 2 t = k0_pay3 (iblk m c 0 t) := by dsimp only [dats]

theorem before_in (c : Dev nD) (t : Fin cfg0.N) (d) : (dats m 0 c).before 0 t d = iblk m c 0 t :=
  before_in_of m (dats m 0 c) (A_eq m c 0) (after_in m c) t d

/-! ## The body obligation -/

/-- What the body is called with at point `t`, the three windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input's memref holds block `t`, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_cos, after_sin]
  iintro ⟨HΦ, Ho, ⟨%d0, H0⟩, ⟨%d1, H1⟩, ⟨%d2, H2⟩⟩
  iapply (sound_kernel c Set.univ (grid0.coords t) _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, and every final state has the
    difference matrix and the two results at what the library computes from the proof data (each result: block `t`
    overwritten by what point `t` left) and every other unscoped buffer as the last stretches leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- What the run says of a buffer that is none of the three arrays. -/
theorem rest_of_run {r : PUnit × MemSt nD τ sig (Elt F)}
    (h : Pipeline.FramePost cfgs (dats m) 0 (Pipeline.afterTail₀ cfgs (dats m) 0 (V0 m) tailOps) r) (c : Dev nD) (b : Ref sig .tc)
    (hs : b.isScoped = false) (ha : ∀ w, (spec0 w).arr.view.ref ≠ b) :
    r.2.mem ((c.tc : Thread nD τ).loc b) = Pipeline.afterTail₀ cfgs (dats m) 0 (V0 m) tailOps c b :=
  (h c).2 b (Pipeline.mem_restRefs_of b hs ha)

/-- THE FRAME: every weakly fair execution terminates, nothing faults, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(rest_of_run m h c main_arg0 (by decide) (by decide)).trans (W_main_arg0 m (dats m) c),
     (rest_of_run m h c main_arg1 (by decide) (by decide)).trans (W_main_arg1 m (dats m) c),
     (rest_of_run m h c main_arg2 (by decide) (by decide)).trans (W_main_arg2 m (dats m) c),
     (rest_of_run m h c main_arg3 (by decide) (by decide)).trans (W_main_arg3 m (dats m) c),
     (rest_of_run m h c main_arg4 (by decide) (by decide)).trans (W_main_arg4 m (dats m) c)⟩) (run_main m ρ)

end Cert.KernelIdeal.Region

end
-- ==== Proof.RegionArrays.lean ====
/-
  What the two result matrices hold after the region.

  Point t of the 25 writes back, into rows 5000·t … 5000·t + 4999 of the first result, the cosine of the same rows of
  the difference matrix, and into the same rows of the second result their sine.  The 25 row bands tile the 125000
  rows, so after the last point the first result is the cosine of the whole difference matrix, element by element,
  and the second its sine.
-/
import proofs.«125133_j10599979287287_2_alg».proof.Proof.RegionIdeal

set_option maxRecDepth 16384

noncomputable section

namespace Cert.KernelIdeal.Region

open Cert.KernelIdeal Cert.KernelIdeal.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ)

/-- The body's first payload is the cosine of its block, element by element (the cast between equal shapes is the
    identity). -/
theorem pay_cos (x : Vec F S5000x128 .f32) : k0_pay2 x = fun j => FloatOps.cos (x j) := by
  unfold k0_pay2 k0_pay1
  rw [shapeCast_self]
  rfl

/-- The second is its sine. -/
theorem pay_sin (x : Vec F S5000x128 .f32) : k0_pay3 x = fun j => FloatOps.sin (x j) := by
  unfold k0_pay3 k0_pay1
  rw [shapeCast_self]
  rfl

/-- The three index maps, checked at each of the 25 grid points: at point t every window's block is block (t, 0). -/
theorem idx_facts : ∀ t : Fin cfg0.N,
    win0_0.index t (0 : Fin 2) = win0_1.index t (0 : Fin 2) ∧ win0_0.index t (1 : Fin 2) = win0_1.index t (1 : Fin 2)
    ∧ win0_0.index t (0 : Fin 2) = win0_2.index t (0 : Fin 2) ∧ win0_0.index t (1 : Fin 2) = win0_2.index t (1 : Fin 2)
    ∧ win0_1.index t (0 : Fin 2) ≤ 24 ∧ win0_1.index t (1 : Fin 2) = 0
    ∧ win0_2.index t (0 : Fin 2) ≤ 24 ∧ win0_2.index t (1 : Fin 2) = 0 :=
  (by decide +kernel : ∀ t : Fin grid0.N, _)

/-- Every row band is some point's, for either result. -/
theorem idx_onto1 : ∀ q : Fin 25, ∃ t : Fin cfg0.N, win0_1.index t = ![q.val, 0] :=
  (by decide +kernel : ∀ q : Fin 25, ∃ t : Fin grid0.N, win0_1.index t = ![q.val, 0])
theorem idx_onto2 : ∀ q : Fin 25, ∃ t : Fin cfg0.N, win0_2.index t = ![q.val, 0] :=
  (by decide +kernel : ∀ q : Fin 25, ∃ t : Fin grid0.N, win0_2.index t = ![q.val, 0])

/-- WHAT POINT t WRITES BACK into the first result is block t of the cosine of the difference matrix. -/
theorem flushed_cos (c : Dev nD) (t : Fin cfg0.N) :
    (dats m 0 c).flushed 1 t = ((cfg0.win 1).blk t).view.read (Elt F) (fun i => FloatOps.cos (V m c main_v18 i)) := by
  show (cfg0.win 1).cut (grid0.coords t) ((dats m 0 c).after 1 t) = _
  rw [after_cos, pay_cos]
  obtain ⟨e0, e1, e2, e3, e4, e5, e6, e7⟩ := idx_facts t
  funext j
  show FloatOps.cos (V m c main_v18 (((cfg0.win 0).blk t).view.emb j)) = FloatOps.cos (V m c main_v18 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 5000 + 1 * (j 0).val = win0_1.index t (0 : Fin 2) * 5000 + 1 * (j 0).val; omega
    | ⟨1, _⟩ => show win0_0.index t (1 : Fin 2) * 128 + 1 * (j 1).val = win0_1.index t (1 : Fin 2) * 128 + 1 * (j 1).val; omega
  rw [h0]

/-- … and into the second, block t of its sine. -/
theorem flushed_sin (c : Dev nD) (t : Fin cfg0.N) :
    (dats m 0 c).flushed 2 t = ((cfg0.win 2).blk t).view.read (Elt F) (fun i => FloatOps.sin (V m c main_v18 i)) := by
  show (cfg0.win 2).cut (grid0.coords t) ((dats m 0 c).after 2 t) = _
  rw [after_sin, pay_sin]
  obtain ⟨e0, e1, e2, e3, e4, e5, e6, e7⟩ := idx_facts t
  funext j
  show FloatOps.sin (V m c main_v18 (((cfg0.win 0).blk t).view.emb j)) = FloatOps.sin (V m c main_v18 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  rw [h0]

/-- An index of a result matrix is in point t's block iff each coordinate is in the block's range on its axis. -/
theorem mem_blk1 (t : Fin cfg0.N) (i : S125000x128.Idx) :
    i ∈ ((cfg0.win 1).blk t).view.set ↔ ∀ a : Fin 2, win0_1.index t a * S5000x128.size a ≤ (i a).val ∧ (i a).val < win0_1.index t a * S5000x128.size a + S5000x128.size a := by
  show i ∈ ((View.whole main_v19_0).slice (win0_1.rect t)).set ↔ _
  rw [View.set_slice_whole, Rect.mem_set_unit]
  exact Iff.rfl
theorem mem_blk2 (t : Fin cfg0.N) (i : S125000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v19_1).slice (win0_2.rect t)).set ↔ _
  rw [View.set_slice_whole, Rect.mem_set_unit]
  exact Iff.rfl

/-- The row bands tile the rows: row r is in the block of the point whose band is r / 5000. -/
theorem cover1 (i : S125000x128.Idx) : ∃ t : Fin cfg0.N, (cfg0.win 1).flush t = true ∧ i ∈ ((cfg0.win 1).blk t).view.set := by
  have hi0 : (i 0).val < 125000 := (i 0).isLt
  have hi1 : (i 1).val < 128 := (i 1).isLt
  obtain ⟨t, ht⟩ := idx_onto1 ⟨(i 0).val / 5000, by omega⟩
  have q0 : win0_1.index t (0 : Fin 2) = (i 0).val / 5000 := congrFun ht 0
  have q1 : win0_1.index t (1 : Fin 2) = 0 := congrFun ht 1
  refine ⟨t, flush0_1 t, ?_⟩
  rw [mem_blk1]
  intro a
  match a with
  | ⟨0, _⟩ => show win0_1.index t (0 : Fin 2) * 5000 ≤ (i 0).val ∧ (i 0).val < win0_1.index t (0 : Fin 2) * 5000 + 5000; omega
  | ⟨1, _⟩ => show win0_1.index t (1 : Fin 2) * 128 ≤ (i 1).val ∧ (i 1).val < win0_1.index t (1 : Fin 2) * 128 + 128; omega
theorem cover2 (i : S125000x128.Idx) : ∃ t : Fin cfg0.N, (cfg0.win 2).flush t = true ∧ i ∈ ((cfg0.win 2).blk t).view.set := by
  have hi0 : (i 0).val < 125000 := (i 0).isLt
  have hi1 : (i 1).val < 128 := (i 1).isLt
  obtain ⟨t, ht⟩ := idx_onto2 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk2]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE FIRST RESULT after the run: the cosine of the difference matrix, element by element. -/
theorem final_cos (c : Dev nD) : (dats m 0 c).arrAt 1 cfg0.N = fun i => FloatOps.cos (V m c main_v18 i) :=
  (dats m 0 c).arrAt_eq_of_cover 1 _ (fun t _ => flushed_cos m c t) cover1

/-- THE SECOND: its sine. -/
theorem final_sin (c : Dev nD) : (dats m 0 c).arrAt 2 cfg0.N = fun i => FloatOps.sin (V m c main_v18 i) :=
  (dats m 0 c).arrAt_eq_of_cover 2 _ (fun t _ => flushed_sin m c t) cover2

end Cert.KernelIdeal.Region

end
-- ==== Proof.Terms.lean ====
/-
  The two programs' torque and velocity as whole-array terms of the four argument arrays they depend on.

  Kernel side.  d = (θ♭[src'] − θ♭[dst']) · 1, where θ♭ is the column θ flattened to a vector and i' is i with N added
  where i is negative; the region's two results are cos and sin of d laid out as a matrix; flattened again they are
  stacked with a column of ones into [E, 3], accumulated per destination node into [N, 3]; columns 0 and 1 over
  max(column 2, 1) give the mean message, which is divided by max(its Euclidean norm, ε), and the second column is
  scaled by w₀.
  Reference side.  The same d read by a pair-index gather from the column θ itself; cos d and sin d stacked into [E, 2]
  and accumulated into [N, 2]; the count accumulated separately from a vector of ones; then the same mean, norm and
  scaling.
-/
import proofs.«125133_j10599979287287_2_alg».proof.Proof.Gen.KernelIdeal
import proofs.«125133_j10599979287287_2_alg».proof.Proof.Gen.ReferenceIdeal
import Idealize.ShloMosaic.PureOps.Ideal

noncomputable section

namespace Cert.Bridge

open Idealize.ShloMosaic

section Kernel
open Cert.KernelIdeal Cert.KernelIdeal.Gen

/-- An index vector with N added where it is negative (the host's wrap-around of negative indices). -/
def wrapK (i : IVec S16000000 32) : IVec S16000000 32 :=
  select (cmpi .slt i (broadcastInDim S16000000 ![] bcast_S_S16000000 (constantI S_ 32 0#32)))
    (addi i (broadcastInDim S16000000 ![] bcast_S_S16000000 (constantI S_ 32 500000#32))) i

/-- The kernel program's angle differences, one per edge. -/
def diffK (θ : FVec Ideal S500000x1 .f32) (src dst : IVec S16000000 32) : FVec Ideal S16000000 .f32 :=
  mulf
    (subf
      (Host.gather gather_S500000_S16000000x1_S16000000_n_0_n_n_0_1_1
        (fun i => shapeCast S500000 θ shapeCasts_S500000x1_S500000 i)
        (broadcastInDim S16000000x1 ![0] bcast_S16000000_S16000000x1_0 (wrapK src)))
      (Host.gather gather_S500000_S16000000x1_S16000000_n_0_n_n_0_1_1
        (fun i => shapeCast S500000 θ shapeCasts_S500000x1_S500000 i)
        (broadcastInDim S16000000x1 ![0] bcast_S16000000_S16000000x1_0 (wrapK dst))))
    (broadcastInDim S16000000 ![] bcast_S_S16000000 (constant S_ .f32 0x3F800000#32))

/-- The accumulated [N, 3] array from the two result matrices A₁, A₂ of the region. -/
def sumsK (A₁ A₂ : FVec Ideal S125000x128 .f32) (dst : IVec S16000000 32) : FVec Ideal S500000x3 .f32 :=
  Host.scatterAdd scatter_S500000x3_S16000000x1_S16000000x3_1_0_0_1
    (broadcastInDim S500000x3 ![] bcast_S_S500000x3 (constant S_ .f32 0x00000000#32))
    (broadcastInDim S16000000x1 ![0] bcast_S16000000_S16000000x1_0 dst)
    (concatenate S16000000x3 1
      [⟨S16000000x1, broadcastInDim S16000000x1 ![0] bcast_S16000000_S16000000x1_0 (fun i => shapeCast S16000000 A₁ shapeCasts_S125000x128_S16000000 i)⟩,
       ⟨S16000000x1, broadcastInDim S16000000x1 ![0] bcast_S16000000_S16000000x1_0 (fun i => shapeCast S16000000 A₂ shapeCasts_S125000x128_S16000000 i)⟩,
       ⟨S16000000x1, broadcastInDim S16000000x1 ![0] bcast_S16000000_S16000000x1_0 (broadcastInDim S16000000 ![] bcast_S_S16000000 (constant S_ .f32 0x3F800000#32))⟩]
      concatenates_S16000000x1_S16000000x1_S16000000x1_S16000000x3_d1)

/-- Column k of the accumulated array as a vector. -/
def colK (k : Nat) (X : FVec Ideal S500000x3 .f32) (hs : S500000x3.Slices ![0, k] S500000x1) : FVec Ideal S500000 .f32 :=
  fun i => shapeCast S500000 (extractStridedSlice S500000x1 ![0, k] X hs) shapeCasts_S500000x1_S500000 i

/-- The kernel program's mean message [N, 2] from the accumulated array. -/
def meanK (X : FVec Ideal S500000x3 .f32) : FVec Ideal S500000x2 .f32 :=
  Host.divf
    (concatenate S500000x2 1
      [⟨S500000x1, broadcastInDim S500000x1 ![0] bcast_S500000_S500000x1_0 (colK 0 X slices_S500000x3_S500000x1_0_0)⟩,
       ⟨S500000x1, broadcastInDim S500000x1 ![0] bcast_S500000_S500000x1_0 (colK 1 X slices_S500000x3_S500000x1_0_1)⟩]
      concatenates_S500000x1_S500000x1_S500000x2_d1)
    (broadcastInDim S500000x2 ![0, 1] bcast_S500000x1_S500000x2_0_1
      (broadcastInDim S500000x1 ![0] bcast_S500000_S500000x1_0
        (maximumf (colK 2 X slices_S500000x3_S500000x1_0_2)
          (broadcastInDim S500000 ![] bcast_S_S500000 (constant S_ .f32 0x3F800000#32)))))

/-- From the mean message Q to the torque: Q over max(‖Q‖, ε), second column, times w₀. -/
def torqueOfMeanK (Q : FVec Ideal S500000x2 .f32) (w₀ : FVec Ideal S_ .f32) : FVec Ideal S500000x1 .f32 :=
  mulf (broadcastInDim S500000x1 ![] bcast_S_S500000x1 w₀)
    (extractStridedSlice S500000x1 ![0, 1]
      (Host.divf Q
        (broadcastInDim S500000x2 ![0, 1] bcast_S500000x1_S500000x2_0_1
          (maximumf
            (Host.sqrt (broadcastInDim S500000x1 ![0] bcast_S500000_S500000x1_0
              (Host.reduceAdd (mulf Q Q) (constant S_ .f32 0x00000000#32) reducesTo_S500000x2_S500000_d1 h_S_)))
            (broadcastInDim S500000x1 ![] bcast_S_S500000x1 (constant S_ .f32 0x2B8CBCCC#32)))))
      slices_S500000x2_S500000x1_0_1)

/-- The kernel program's torque from the region's two result matrices. -/
def torqueK (A₁ A₂ : FVec Ideal S125000x128 .f32) (dst : IVec S16000000 32) (w₀ : FVec Ideal S_ .f32) : FVec Ideal S500000x1 .f32 :=
  torqueOfMeanK (meanK (sumsK A₁ A₂ dst)) w₀

/-- The kernel program's node velocity. -/
def velK (θ : FVec Ideal S500000x1 .f32) (v₀ : FVec Ideal S_ .f32) : FVec Ideal S500000x2 .f32 :=
  mulf (broadcastInDim S500000x2 ![] bcast_S_S500000x2 v₀)
    (concatenate S500000x2 1 [⟨S500000x1, Host.cos θ⟩, ⟨S500000x1, Host.sin θ⟩] concatenates_S500000x1_S500000x1_S500000x2_d1)

end Kernel

section Reference
open Cert.ReferenceIdeal Cert.ReferenceIdeal.Gen

def wrapR (i : IVec S16000000 32) : IVec S16000000 32 :=
  select (cmpi .slt i (broadcastInDim S16000000 ![] bcast_S_S16000000 (constantI S_ 32 0#32)))
    (addi i (broadcastInDim S16000000 ![] bcast_S_S16000000 (constantI S_ 32 500000#32))) i

/-- The pair of integers per edge the reference gathers with: the wrapped index and a zero. -/
def pairR (i : IVec S16000000 32) : IVec S16000000x2 32 :=
  concatenate S16000000x2 1
    [⟨S16000000x1, broadcastInDim S16000000x1 ![0] bcast_S16000000_S16000000x1_0 (wrapR i)⟩,
     ⟨S16000000x1, broadcastInDim S16000000x1 ![0] bcast_S16000000_S16000000x1_0 (id (broadcastInDim S16000000 ![] bcast_S_S16000000 (constantI S_ 32 0#32)))⟩]
    concatenates_S16000000x1_S16000000x1_S16000000x2_d1

/-- The reference's angle differences. -/
def diffR (θ : FVec Ideal S500000x1 .f32) (src dst : IVec S16000000 32) : FVec Ideal S16000000 .f32 :=
  mulf
    (subf (Host.gather gather_S500000x1_S16000000x2_S16000000_n_01_n_n_01_1_11 θ (pairR src))
      (Host.gather gather_S500000x1_S16000000x2_S16000000_n_01_n_n_01_1_11 θ (pairR dst)))
    (broadcastInDim S16000000 ![] bcast_S_S16000000 (constant S_ .f32 0x3F800000#32))

/-- The reference's accumulated messages [N, 2] and count [N] from the differences D. -/
def sumsR (D : FVec Ideal S16000000 .f32) (dst : IVec S16000000 32) : FVec Ideal S500000x2 .f32 :=
  Host.scatterAdd scatter_S500000x2_S16000000x1_S16000000x2_1_0_0_1
    (broadcastInDim S500000x2 ![] bcast_S_S500000x2 (constant S_ .f32 0x00000000#32))
    (broadcastInDim S16000000x1 ![0] bcast_S16000000_S16000000x1_0 dst)
    (concatenate S16000000x2 1
      [⟨S16000000x1, broadcastInDim S16000000x1 ![0] bcast_S16000000_S16000000x1_0 (Host.cos D)⟩,
       ⟨S16000000x1, broadcastInDim S16000000x1 ![0] bcast_S16000000_S16000000x1_0 (Host.sin D)⟩]
      concatenates_S16000000x1_S16000000x1_S16000000x2_d1)

def countR (dst : IVec S16000000 32) : FVec Ideal S500000 .f32 :=
  Host.scatterAdd scatter_S500000_S16000000x1_S16000000_n_0_0_1
    (broadcastInDim S500000 ![] bcast_S_S500000 (constant S_ .f32 0x00000000#32))
    (broadcastInDim S16000000x1 ![0] bcast_S16000000_S16000000x1_0 dst)
    (broadcastInDim S16000000 ![] bcast_S_S16000000 (constant S_ .f32 0x3F800000#32))

def meanR (X : FVec Ideal S500000x2 .f32) (cnt : FVec Ideal S500000 .f32) : FVec Ideal S500000x2 .f32 :=
  Host.divf X
    (broadcastInDim S500000x2 ![0, 1] bcast_S500000x1_S500000x2_0_1
      (broadcastInDim S500000x1 ![0] bcast_S500000_S500000x1_0
        (maximumf cnt (broadcastInDim S500000 ![] bcast_S_S500000 (constant S_ .f32 0x3F800000#32)))))

def torqueOfMeanR (Q : FVec Ideal S500000x2 .f32) (w₀ : FVec Ideal S_ .f32) : FVec Ideal S500000x1 .f32 :=
  mulf (broadcastInDim S500000x1 ![] bcast_S_S500000x1 w₀)
    (extractStridedSlice S500000x1 ![0, 1]
      (Host.divf Q
        (broadcastInDim S500000x2 ![0, 1] bcast_S500000x1_S500000x2_0_1
          (maximumf
            (Host.sqrt (broadcastInDim S500000x1 ![0] bcast_S500000_S500000x1_0
              (Host.reduceAdd (mulf Q Q) (constant S_ .f32 0x00000000#32) reducesTo_S500000x2_S500000_d1 h_S_)))
            (broadcastInDim S500000x1 ![] bcast_S_S500000x1 (constant S_ .f32 0x2B8CBCCC#32)))))
      slices_S500000x2_S500000x1_0_1)

/-- The reference's torque. -/
def torqueR (θ : FVec Ideal S500000x1 .f32) (src dst : IVec S16000000 32) (w₀ : FVec Ideal S_ .f32) : FVec Ideal S500000x1 .f32 :=
  torqueOfMeanR (meanR (sumsR (diffR θ src dst) dst) (countR dst)) w₀

end Reference

end Cert.Bridge

end
-- ==== Proof.TailStages.lean ====
/-
  The operations after the region, read in three stages from ANY buffer contents G.

  The accumulated [N, 3] array is a function of the two result matrices and the destination indices; the mean message is
  a function of the accumulated array; the torque is a function of the mean message and the scalar w₀.  Each stage is
  read from the operations' own functions; the accumulated array is used three times by the second stage and the mean
  message three times by the third, so each is named once and not expanded again.
-/
import proofs.«125133_j10599979287287_2_alg».proof.Proof.RegionIdeal
import proofs.«125133_j10599979287287_2_alg».proof.Proof.Terms
import Idealize.ShloMosaic.Lib.StableHlo.Run

set_option maxRecDepth 16384

noncomputable section

namespace Cert.KernelIdeal.Region

open Cert.KernelIdeal Cert.KernelIdeal.Gen
open Idealize.ShloMosaic Idealize.ShloMosaic.TcCoe Idealize.SL.Sem Idealize.ShloMosaic.StableHlo

/-- Operations run one stretch after another: the contents after the second stretch, from the contents after the first. -/
theorem after_append {τ' : Topo} {sig' : RefSig} {Val : EltTy → Type} :
    ∀ (l₁ l₂ : List (HloOp τ' sig' Val)) (G : Valuation τ' sig' Val), after (l₁ ++ l₂) G = after l₂ (after l₁ G)
  | [], _, _ => rfl
  | op :: l₁, l₂, G => by rw [List.cons_append, after_cons, after_cons, after_append l₁ l₂]

/-- The operation joining the three edge columns, read at its result: the join of the three operands' contents, each
    at its own buffer. -/
theorem join3_result (G : Valuation τ sig (Elt Ideal)) (hxs hy) :
    (nary (τ := τ) ![main_v23, main_v24, main_v25] main_v26 (fun u => concatenate S16000000x3 1 [⟨S16000000x1, u 0⟩, ⟨S16000000x1, u 1⟩, ⟨S16000000x1, u 2⟩] concatenates_S16000000x1_S16000000x1_S16000000x1_S16000000x3_d1) hxs hy).result G (Proc.devRef .tc main_v26)
      = concatenate S16000000x3 1 [⟨S16000000x1, G (Proc.devRef .tc main_v23)⟩, ⟨S16000000x1, G (Proc.devRef .tc main_v24)⟩,
          ⟨S16000000x1, G (Proc.devRef .tc main_v25)⟩] concatenates_S16000000x1_S16000000x1_S16000000x1_S16000000x3_d1 :=
  (nary_result _ _ _ hxs hy G).trans rfl

/-- Reads a buffer after a literal list of host operations: each operation's result at its own buffer is its function
    of its operands' contents, and at any other buffer what was there. -/
macro "read_results" : tactic =>
  `(tactic| (simp only [after_cons, after_nil]
             repeat (first
               | rw [nullary_result] | rw [unary_result] | rw [binary_result] | rw [ternary_result]
               | rw [reshape_result] | rw [join3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

/-- The same, stopping at the accumulation (the one three-operand operation): it is left as it stands. -/
macro "read_to_sums" : tactic =>
  `(tactic| (simp only [after_cons, after_nil]
             repeat (first
               | rw [nullary_result] | rw [unary_result] | rw [binary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

variable (G : Valuation τ sig (Elt Ideal))

set_option maxHeartbeats 40000000 in
/-- STAGE 1: the accumulated array, from the two result matrices and the destination indices. -/
theorem read_sums : after hostOps1 G (Proc.devRef .tc main_v29)
    = Cert.Bridge.sumsK (G (Proc.devRef .tc main_v19_0)) (G (Proc.devRef .tc main_v19_1)) (G (Proc.devRef .tc main_arg2)) := by
  simp only [hostOps1]
  read_results
  rfl

set_option maxHeartbeats 40000000 in
/-- STAGE 2: the mean message, from the accumulated array. -/
theorem read_mean : after hostOps1 G (Proc.devRef .tc main_v43)
    = Cert.Bridge.meanK (after hostOps1 G (Proc.devRef .tc main_v29)) := by
  simp only [hostOps1]
  read_to_sums
  rfl

/-- The first stretch after the region does not write the scalar w₀. -/
theorem keep_w : after hostOps1 G (Proc.devRef .tc main_arg4) = G (Proc.devRef .tc main_arg4) :=
  after_of_forall_not_mem (b := Proc.devRef .tc main_arg4) _ _ (List.forall_iff_forall_mem.mp (by
    simp only [hostOps1, List.Forall, nullary_writes, unary_writes, binary_writes, ternary_writes, nary_writes, reshape_writes, Finset.mem_singleton]
    repeat' apply And.intro
    all_goals exact devRef_ne_of_ne (by decide)))

set_option maxHeartbeats 40000000 in
/-- STAGE 3: the torque, from the mean message and w₀. -/
theorem read_torque : after (hostOps1_1 ++ hostOps1_2) G (Proc.devRef .tc main_v51)
    = Cert.Bridge.torqueOfMeanK (G (Proc.devRef .tc main_v43)) (G (Proc.devRef .tc main_arg4)) := by
  simp only [hostOps1_1, hostOps1_2, List.cons_append, List.nil_append]
  read_results
  rfl

/-- THE THREE STAGES composed: the torque buffer after all the operations that follow the region. -/
theorem read_tail : after (List.flatten [hostOps1, hostOps1_1, hostOps1_2]) G (Proc.devRef .tc main_v51)
    = Cert.Bridge.torqueK (G (Proc.devRef .tc main_v19_0)) (G (Proc.devRef .tc main_v19_1)) (G (Proc.devRef .tc main_arg2))
        (G (Proc.devRef .tc main_arg4)) := by
  rw [show List.flatten [hostOps1 (F := Ideal), hostOps1_1, hostOps1_2] = hostOps1 ++ (hostOps1_1 ++ hostOps1_2) from by
    simp only [List.flatten_cons, List.flatten_nil, List.append_nil],
    after_append, read_torque, read_mean, read_sums, keep_w]
  rfl

end Cert.KernelIdeal.Region

end
-- ==== Proof.AfterRegion.lean ====
/-
  The idealized kernel program's two results as terms of its argument arrays.

  After the region the first result matrix is cos of the difference matrix and the second its sine; the operations that
  follow read those two matrices, the destination indices and the two scalars, and nothing else the region wrote.  So
  the velocity is v₀ · [cos θ, sin θ] and the torque is the kernel-side torque term of the two matrices.
-/
import proofs.«125133_j10599979287287_2_alg».proof.Proof.RegionArrays
import proofs.«125133_j10599979287287_2_alg».proof.Proof.Terms
import proofs.«125133_j10599979287287_2_alg».proof.Proof.TailStages
import Idealize.ShloMosaic.Lib.StableHlo.Run

set_option maxRecDepth 16384

noncomputable section

namespace Cert.KernelIdeal.Region

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

theorem atExit_cos (c : Dev nD) : (Pipeline.withArrays (cfgs 0).spec c (V0 m c) (fun w => (dats m 0 c).arrAt w (cfgs 0).N)) (Proc.devRef .tc main_v19_0) = (dats m 0 c).arrAt 1 cfg0.N :=
  Pipeline.withArrays_arr spec0 launch0.win.arr_inj c _ _ 1
theorem atExit_sin (c : Dev nD) : (Pipeline.withArrays (cfgs 0).spec c (V0 m c) (fun w => (dats m 0 c).arrAt w (cfgs 0).N)) (Proc.devRef .tc main_v19_1) = (dats m 0 c).arrAt 2 cfg0.N :=
  Pipeline.withArrays_arr spec0 launch0.win.arr_inj c _ _ 2
theorem atExit_arg0 (c : Dev nD) : (Pipeline.withArrays (cfgs 0).spec c (V0 m c) (fun w => (dats m 0 c).arrAt w (cfgs 0).N)) (Proc.devRef .tc main_arg0) = m ((c : Thread nD τ).loc main_arg0) :=
  (Pipeline.withArrays_of_ne _ c (V0 m c) _ main_arg0 (by exact (by decide : ∀ w, Pipeline.arrRef spec0 w ≠ main_arg0))).trans (V_main_arg0 m c)
theorem atExit_arg2 (c : Dev nD) : (Pipeline.withArrays (cfgs 0).spec c (V0 m c) (fun w => (dats m 0 c).arrAt w (cfgs 0).N)) (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
theorem atExit_arg3 (c : Dev nD) : (Pipeline.withArrays (cfgs 0).spec c (V0 m c) (fun w => (dats m 0 c).arrAt w (cfgs 0).N)) (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)
theorem atExit_arg4 (c : Dev nD) : (Pipeline.withArrays (cfgs 0).spec c (V0 m c) (fun w => (dats m 0 c).arrAt w (cfgs 0).N)) (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)

set_option maxHeartbeats 4000000 in
/-- The difference matrix the region finds: the differences of the launch arrays, laid out 125000 × 128. -/
theorem found_diff (c : Dev nD) : V m c main_v18 = fun i => shapeCast S125000x128
    (Cert.Bridge.diffK (m ((c : Thread nD τ).loc main_arg0)) (m ((c : Thread nD τ).loc main_arg1)) (m ((c : Thread nD τ).loc main_arg2)))
    shapeCasts_S16000000_S125000x128 i := by
  dsimp only [V, V0]
  simp only [hostOps0, List.flatten_cons, List.flatten_nil, List.append_nil, List.cons_append, List.nil_append]
  after_results_simp
  rfl

set_option maxHeartbeats 40000000 in
/-- THE VELOCITY the kernel program ends with. -/
theorem tail_vel (c : Dev nD) : Pipeline.afterTail₀ cfgs (dats m) 0 (V0 m) tailOps c main_v56
    = Cert.Bridge.velK (m ((c : Thread nD τ).loc main_arg0)) (m ((c : Thread nD τ).loc main_arg3)) := by
  unfold Pipeline.afterTail₀
  simp only [tailOps, hostOps1, hostOps1_1, hostOps1_2, List.flatten_cons, List.flatten_nil, List.append_nil, List.cons_append, List.nil_append]
  after_results
  rw [atExit_arg0, atExit_arg3]
  rfl

/-- THE TORQUE the kernel program ends with, from the region's two result matrices. -/
theorem tail_torque (c : Dev nD) : Pipeline.afterTail₀ cfgs (dats m) 0 (V0 m) tailOps c main_v51
    = Cert.Bridge.torqueK ((Pipeline.withArrays (cfgs 0).spec c (V0 m c) (fun w => (dats m 0 c).arrAt w (cfgs 0).N)) (Proc.devRef .tc main_v19_0)) ((Pipeline.withArrays (cfgs 0).spec c (V0 m c) (fun w => (dats m 0 c).arrAt w (cfgs 0).N)) (Proc.devRef .tc main_v19_1))
        (m ((c : Thread nD τ).loc main_arg2)) (m ((c : Thread nD τ).loc main_arg4)) := by
  unfold Pipeline.afterTail₀
  show after (List.flatten [hostOps1, hostOps1_1, hostOps1_2]) _ (Proc.devRef .tc main_v51) = _
  rw [read_tail, atExit_arg2, atExit_arg4]

/-- THE KERNEL PROGRAM'S RUN, READ: every weakly fair execution terminates with the velocity at v₀ · [cos θ, sin θ], the
    torque at the kernel-side term of the cosine and the sine of the differences, and the five arguments as launched. -/
theorem run_values (ρ : Dev nD → PrngReg) :
    θ_run defs (onTc (τ := τ) (main (F := Ideal))) ⟨m, fun _ => 0, ρ⟩ (fun r => ∀ c : Dev nD,
      r.2.mem ((c.tc : Thread nD τ).loc main_v56)
        = Cert.Bridge.velK (m ((c : Thread nD τ).loc main_arg0)) (m ((c : Thread nD τ).loc main_arg3))
      ∧ r.2.mem ((c.tc : Thread nD τ).loc main_v51)
        = Cert.Bridge.torqueK
            (fun i => FloatOps.cos (shapeCast S125000x128 (Cert.Bridge.diffK (m ((c : Thread nD τ).loc main_arg0))
              (m ((c : Thread nD τ).loc main_arg1)) (m ((c : Thread nD τ).loc main_arg2))) shapeCasts_S16000000_S125000x128 i))
            (fun i => FloatOps.sin (shapeCast S125000x128 (Cert.Bridge.diffK (m ((c : Thread nD τ).loc main_arg0))
              (m ((c : Thread nD τ).loc main_arg1)) (m ((c : Thread nD τ).loc main_arg2))) shapeCasts_S16000000_S125000x128 i))
            (m ((c : Thread nD τ).loc main_arg2)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(rest_of_run m h c main_v56 (by decide) (by decide)).trans (tail_vel m c),
     (rest_of_run m h c main_v51 (by decide) (by decide)).trans ((tail_torque m c).trans (by
        rw [atExit_cos, atExit_sin, final_cos, final_sin, found_diff]
        rfl)),
     (rest_of_run m h c main_arg0 (by decide) (by decide)).trans (W_main_arg0 m (dats m) c),
     (rest_of_run m h c main_arg1 (by decide) (by decide)).trans (W_main_arg1 m (dats m) c),
     (rest_of_run m h c main_arg2 (by decide) (by decide)).trans (W_main_arg2 m (dats m) c),
     (rest_of_run m h c main_arg3 (by decide) (by decide)).trans (W_main_arg3 m (dats m) c),
     (rest_of_run m h c main_arg4 (by decide) (by decide)).trans (W_main_arg4 m (dats m) c)⟩) (run_main m ρ)

end Cert.KernelIdeal.Region

end
-- ==== Proof.ReferenceTerms.lean ====
/-
  The reference program's two results as the reference-side terms of its argument arrays: its run ends with the velocity
  at v₀ · [cos θ, sin θ] and the torque at the composition of its operations, which is the reference-side torque term by
  definition.
-/
import proofs.«125133_j10599979287287_2_alg».proof.Proof.Gen.ReferenceIdeal.Run
import proofs.«125133_j10599979287287_2_alg».proof.Proof.Terms

set_option maxRecDepth 16384

noncomputable section

namespace Cert.ReferenceIdeal.RefValue

open Cert.ReferenceIdeal Cert.ReferenceIdeal.Gen
open Idealize.ShloMosaic Idealize.ShloMosaic.TcCoe Idealize.SL.Sem

set_option maxHeartbeats 4000000 in
/-- The reference's torque is the reference-side torque term of its four arrays. -/
theorem torque_term (m : (ℓ : Loc nD τ sig) → Buf (Elt Ideal) ℓ) (c : Dev nD) :
    Cert.ReferenceIdeal.Value.res_main_v54 (F := Ideal) m c
      = Cert.Bridge.torqueR (m ((c.tc : Thread nD τ).loc main_arg0)) (m ((c.tc : Thread nD τ).loc main_arg1))
          (m ((c.tc : Thread nD τ).loc main_arg2)) (m ((c.tc : Thread nD τ).loc main_arg4)) := by
  unfold Cert.ReferenceIdeal.Value.res_main_v54
  rfl

end Cert.ReferenceIdeal.RefValue

end
-- ==== Proof.LibEdgeGatherScatter.lean ====
/-
  Gathers and accumulating scatters keyed by ONE integer per edge, in two layouts. Independent of any program.

  An edge list of length `E` carries, per edge `e`, one integer `idx[e, 0]` (the start indices have shape `[E, 1]`).

  1. GATHER.  Rows of a matrix `x : [N, D]` taken at the edges' integers (`x[idx]`: offset axis 1, collapsed axis 0,
     slices `[1, D]`) give `[E, D]`, whose element `(e, c)` is `x` at row `clampRow idx e` — the integer read signed
     and clamped into `[0, N − 1]`, as the gather clamps every start index — and column `c`.  The same integers taken
     along the MIDDLE axis of `x : [B, N, D]` (`x[:, idx, :]`: offset axes 0 and 2, collapsed axis 1, slices
     `[B, 1, D]`) give `[B, E, D]`, whose element `(b, e, o)` is `x` at `(b, clampRow idx e, o)`.

  2. ACCUMULATING SCATTER over the extended reals.  Updates `[E, D]` added into `x : [N, D]` at the rows the edges'
     integers name (window axis 1, inserted axis 0) leave at `(n, c)` the value `x (n, c)` plus the sum, over the edges
     whose integer, read signed, IS `n`, of the update at `(e, c)`; an edge whose integer is outside `[0, N)` lands
     nowhere.  Updates `[B, E, D]` added into `x : [B, N, D]` along the middle axis (window axes 0 and 2, inserted
     axis 1) leave at `(b, n, o)` the value `x (b, n, o)` plus the sum over the same edges of the update at `(b, e, o)`.
     In both layouts the sum ranges over the SAME set of edges, which is what lets a scatter over a matrix whose rows
     pack `B` blocks of width `O` be compared with the scatter over the unpacked `[B, N, O]` array.
-/
import Idealize.ShloMosaic.Lib.ValueIdx
import Idealize.ShloMosaic.PureOps.Ideal

noncomputable section

namespace Cert.Lib

open Idealize.ShloMosaic Idealize.ShloMosaic.ValueIdx

/-! ## The row an edge's integer selects -/

/-- The row of an `N`-row operand that edge `e` reads: its integer `idx[e, 0]`, signed, clamped into `[0, N − 1]`. -/
def clampRow {E w : Nat} (N : Nat) (hN : 0 < N) (idx : IVec ⟨2, ![E, 1]⟩ w) (e : Fin E) : Fin N :=
  ⟨min (idx (ix2 e (0 : Fin 1))).toInt.toNat (N - 1), by omega⟩

/-! ## Gathers -/

section Gather
variable {α : Type}

/-- The dimension numbers of `x[idx]` for an operand `[N, D]`, start indices `[E, 1]` and result `[E, D]`. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- ROWS OF A MATRIX at `(e, c)`: the operand at row `clampRow idx e`, column `c`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c) = x (ix2 (clampRow N hN idx e) c) := by
  unfold Host.gather
  congr 1
  funext a
  refine Fin.ext ?_
  match a with
  | ⟨0, _⟩ =>
    show (rowGatherDims N D E wf).start (ix2 e c) idx 0 + (rowGatherDims N D E wf).batchCoord (ix2 e c) 0
        + (rowGatherDims N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c) ⟨List.idxOf (0 : Fin 2) (rowGatherDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
        + (rowGatherDims N D E wf).offCoord (ix2 e c) 1 = _
    rw [GatherDims.batchCoord_eq_zero _ _ _ List.not_mem_nil]
    unfold GatherDims.start
    rw [dif_neg (show ¬ (1 : Fin 2) ∈ ([0] : List (Fin 2)) from by decide)]
    have hk : (1 : Fin 2) ∈ (rowGatherDims N D E wf).sKept :=
      (GatherDims.mem_sKept _ _).mpr ⟨(show ¬ (1 : Fin 2) ∈ ([0] : List (Fin 2)) from by decide), List.not_mem_nil⟩
    unfold GatherDims.offCoord
    rw [dif_pos hk]
    simp only [Nat.zero_add, Nat.add_zero]
    rfl

/-- The dimension numbers of `x[:, idx, :]` for an operand `[B, N, D]`, start indices `[E, 1]` and result
    `[B, E, D]`. -/
abbrev midGatherDims (B N D E : Nat)
    (wf : GatherDims.WF ⟨3, ![B, N, D]⟩ ⟨2, ![E, 1]⟩ ⟨3, ![B, E, D]⟩ [0, 2] [1] [] [1] [] 1 ![B, 1, D]) :
    GatherDims ⟨3, ![B, N, D]⟩ ⟨2, ![E, 1]⟩ ⟨3, ![B, E, D]⟩ where
  offsetDims := [0, 2]
  collapsedSliceDims := [1]
  operandBatchingDims := []
  startIndicesBatchingDims := []
  startIndexMap := [1]
  indexVectorDim := 1
  sliceSizes := ![B, 1, D]
  wf := wf

/-- THE MIDDLE AXIS OF A RANK-3 ARRAY at `(b, e, o)`: the operand at `(b, clampRow idx e, o)`. -/
theorem gather_mid_apply {B N D E w : Nat} (hN : 0 < N)
    (wf : GatherDims.WF ⟨3, ![B, N, D]⟩ ⟨2, ![E, 1]⟩ ⟨3, ![B, E, D]⟩ [0, 2] [1] [] [1] [] 1 ![B, 1, D])
    (x : (⟨3, ![B, N, D]⟩ : Shape).Idx → α) (idx : IVec ⟨2, ![E, 1]⟩ w) (b : Fin B) (e : Fin E) (o : Fin D) :
    Host.gather (midGatherDims B N D E wf) x idx (ix3 b e o) = x (ix3 b (clampRow N hN idx e) o) := by
  unfold Host.gather
  congr 1
  funext a
  refine Fin.ext ?_
  match a with
  | ⟨0, _⟩ =>
    show (midGatherDims B N D E wf).start (ix3 b e o) idx 0 + (midGatherDims B N D E wf).batchCoord (ix3 b e o) 0
        + (midGatherDims B N D E wf).offCoord (ix3 b e o) 0 = _
    rw [GatherDims.batchCoord_eq_zero _ _ _ List.not_mem_nil]
    unfold GatherDims.start
    rw [dif_neg (show ¬ (0 : Fin 3) ∈ ([1] : List (Fin 3)) from by decide)]
    have hk : (0 : Fin 3) ∈ (midGatherDims B N D E wf).sKept :=
      (GatherDims.mem_sKept _ _).mpr ⟨(show ¬ (0 : Fin 3) ∈ ([1] : List (Fin 3)) from by decide), List.not_mem_nil⟩
    unfold GatherDims.offCoord
    rw [dif_pos hk]
    simp only [Nat.zero_add, Nat.add_zero]
    rfl
  | ⟨1, _⟩ =>
    show (midGatherDims B N D E wf).start (ix3 b e o) idx 1 + (midGatherDims B N D E wf).batchCoord (ix3 b e o) 1
        + (midGatherDims B N D E wf).offCoord (ix3 b e o) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midGatherDims B N D E wf).startIndexMap from List.mem_singleton.mpr rfl)]
    have hsi : (midGatherDims B N D E wf).siIdx (ix3 b e o) ⟨List.idxOf (1 : Fin 3) (midGatherDims B N D E wf).startIndexMap,
        List.idxOf_lt_length_iff.2 (List.mem_singleton.mpr rfl)⟩ = ix2 e (0 : Fin 1) := by
      funext b'; refine Fin.ext ?_
      match b' with
      | ⟨0, _⟩ => rfl
      | ⟨1, _⟩ => rfl
    rw [hsi]
    rfl
  | ⟨2, _⟩ =>
    show (midGatherDims B N D E wf).start (ix3 b e o) idx 2 + (midGatherDims B N D E wf).batchCoord (ix3 b e o) 2
        + (midGatherDims B N D E wf).offCoord (ix3 b e o) 2 = _
    rw [GatherDims.batchCoord_eq_zero _ _ _ List.not_mem_nil]
    unfold GatherDims.start
    rw [dif_neg (show ¬ (2 : Fin 3) ∈ ([1] : List (Fin 3)) from by decide)]
    have hk : (2 : Fin 3) ∈ (midGatherDims B N D E wf).sKept :=
      (GatherDims.mem_sKept _ _).mpr ⟨(show ¬ (2 : Fin 3) ∈ ([1] : List (Fin 3)) from by decide), List.not_mem_nil⟩
    unfold GatherDims.offCoord
    rw [dif_pos hk]
    simp only [Nat.zero_add, Nat.add_zero]
    rfl

end Gather

/-! ## Accumulating scatters over the extended reals -/

section Scatter

/-- An operand axis receives a window coordinate exactly when it is not an inserted axis. -/
theorem mem_sKept_iff {s si u : Shape} (d : ScatterDims s si u) (a : Fin s.rank) :
    a ∈ d.sKept ↔ a ∉ d.insertedWindowDims := by
  simp [ScatterDims.sKept, Shape.kept, List.mem_filter, List.mem_finRange]

/-! ### Rows of a matrix -/

/-- The dimension numbers of `x.at[idx].add(upd)` for an operand `[N, D]`, scatter indices `[E, 1]` and updates
    `[E, D]`. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)
  (idx : IVec ⟨2, ![E, 1]⟩ w)

/-- On the row axis the window of update `(e, c)` starts at edge `e`'s integer, read signed, … -/
theorem rowScatter_start0 (e : Fin E) (c : Fin D) :
    (rowScatterDims N D E wf).start (ix2 e c) idx 0 = (idx (ix2 e (0 : Fin 1))).toInt := by
  unfold ScatterDims.start
  rw [dif_pos (show (0 : Fin 2) ∈ (rowScatterDims N D E wf).scatterDimsToOperandDims from List.mem_singleton.mpr rfl)]
  have hsi : (rowScatterDims N D E wf).siIdx (ix2 e c) ⟨List.idxOf (0 : Fin 2) (rowScatterDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at zero. -/
theorem rowScatter_start1 (j : (⟨2, ![E, D]⟩ : Shape).Idx) : (rowScatterDims N D E wf).start j idx 1 = 0 := by
  unfold ScatterDims.start
  rw [dif_neg (show ¬ (1 : Fin 2) ∈ ([0] : List (Fin 2)) from by decide)]

/-- The window coordinate is zero on the row axis … -/
theorem rowScatter_window0 (j : (⟨2, ![E, D]⟩ : Shape).Idx) : (rowScatterDims N D E wf).window j 0 = 0 := by
  unfold ScatterDims.window
  rw [dif_neg (fun h => ((mem_sKept_iff _ _).mp h) (List.mem_singleton.mpr rfl))]

/-- … and the update's column on the column axis. -/
theorem rowScatter_window1 (e : Fin E) (c : Fin D) : (rowScatterDims N D E wf).window (ix2 e c) 1 = c.val := by
  have hk : (1 : Fin 2) ∈ (rowScatterDims N D E wf).sKept :=
    (mem_sKept_iff _ _).mpr (show ¬ (1 : Fin 2) ∈ ([0] : List (Fin 2)) from by decide)
  unfold ScatterDims.window
  rw [dif_pos hk]
  rfl

/-- WHERE UPDATE `(e, c)` LANDS: at `(n, c')` exactly when edge `e`'s integer, read signed, is `n` and the columns agree. -/
theorem rowScatter_resultIdx_iff (e : Fin E) (c : Fin D) (n : Fin N) (c' : Fin D) :
    (rowScatterDims N D E wf).resultIdx? (ix2 e c) idx = some (ix2 n c')
      ↔ (idx (ix2 e (0 : Fin 1))).toInt = (n.val : Int) ∧ c = c' := by
  have h0 : (rowScatterDims N D E wf).start (ix2 e c) idx 0 + ((rowScatterDims N D E wf).window (ix2 e c) 0 : Int)
      = (idx (ix2 e (0 : Fin 1))).toInt := by
    rw [rowScatter_start0, rowScatter_window0]; simp
  have h1 : (rowScatterDims N D E wf).start (ix2 e c) idx 1 + ((rowScatterDims N D E wf).window (ix2 e c) 1 : Int)
      = (c.val : Int) := by
    rw [rowScatter_start1, rowScatter_window1]; simp
  constructor
  · intro hs
    unfold ScatterDims.resultIdx? at hs
    split at hs
    · rename_i h
      have hf := Option.some.inj hs
      have e0 : ((rowScatterDims N D E wf).start (ix2 e c) idx 0 + ((rowScatterDims N D E wf).window (ix2 e c) 0 : Int)).toNat
          = n.val := congrArg Fin.val (congrFun hf 0)
      have e1 : ((rowScatterDims N D E wf).start (ix2 e c) idx 1 + ((rowScatterDims N D E wf).window (ix2 e c) 1 : Int)).toNat
          = c'.val := congrArg Fin.val (congrFun hf 1)
      have b0 : 0 ≤ (rowScatterDims N D E wf).start (ix2 e c) idx 0 + ((rowScatterDims N D E wf).window (ix2 e c) 0 : Int) :=
        (h 0).1
      rw [h0] at e0 b0
      rw [h1] at e1
      exact ⟨by omega, Fin.ext (by omega)⟩
    · exact absurd hs (by simp)
  · rintro ⟨hr, rfl⟩
    have hn : n.val < N := n.isLt
    have hc : c.val < D := c.isLt
    have h : ∀ a, 0 ≤ (rowScatterDims N D E wf).start (ix2 e c) idx a + ((rowScatterDims N D E wf).window (ix2 e c) a : Int)
        ∧ (rowScatterDims N D E wf).start (ix2 e c) idx a + ((rowScatterDims N D E wf).window (ix2 e c) a : Int)
          < ((⟨2, ![N, D]⟩ : Shape).size a : Int) := by
      intro a
      match a with
      | ⟨0, _⟩ =>
        show 0 ≤ (rowScatterDims N D E wf).start (ix2 e c) idx 0 + ((rowScatterDims N D E wf).window (ix2 e c) 0 : Int)
          ∧ (rowScatterDims N D E wf).start (ix2 e c) idx 0 + ((rowScatterDims N D E wf).window (ix2 e c) 0 : Int) < (N : Int)
        rw [h0, hr]; omega
      | ⟨1, _⟩ =>
        show 0 ≤ (rowScatterDims N D E wf).start (ix2 e c) idx 1 + ((rowScatterDims N D E wf).window (ix2 e c) 1 : Int)
          ∧ (rowScatterDims N D E wf).start (ix2 e c) idx 1 + ((rowScatterDims N D E wf).window (ix2 e c) 1 : Int) < (D : Int)
        rw [h1]; omega
    unfold ScatterDims.resultIdx?
    rw [dif_pos h]
    refine congrArg some (funext fun a => Fin.ext ?_)
    match a with
    | ⟨0, _⟩ =>
      show ((rowScatterDims N D E wf).start (ix2 e c) idx 0 + ((rowScatterDims N D E wf).window (ix2 e c) 0 : Int)).toNat = n.val
      rw [h0, hr]; omega
    | ⟨1, _⟩ =>
      show ((rowScatterDims N D E wf).start (ix2 e c) idx 1 + ((rowScatterDims N D E wf).window (ix2 e c) 1 : Int)).toNat = c.val
      rw [h1]; omega

/-- ROWS ACCUMULATED INTO A MATRIX at `(n, c)`: the operand there plus the updates `(e, c)` of the edges whose integer
    is `n`. -/
theorem scatterAdd_rows_apply (x : (⟨2, ![N, D]⟩ : Shape).Idx → EReal) (upd : (⟨2, ![E, D]⟩ : Shape).Idx → EReal)
    (n : Fin N) (c : Fin D) :
    Ideal.hostScatterAdd (rowScatterDims N D E wf) x idx upd (ix2 n c)
      = x (ix2 n c) + ∑ e ∈ Finset.univ.filter (fun e : Fin E => (idx (ix2 e (0 : Fin 1))).toInt = (n.val : Int)),
          upd (ix2 e c) := by
  unfold Ideal.hostScatterAdd
  refine congrArg (x (ix2 n c) + ·) ?_
  have key : ∀ j : (⟨2, ![E, D]⟩ : Shape).Idx, (rowScatterDims N D E wf).resultIdx? j idx = some (ix2 n c) →
      (idx (ix2 (j 0 : Fin E) (0 : Fin 1))).toInt = (n.val : Int) ∧ ix2 (j 0 : Fin E) c = j := by
    intro j hj
    obtain ⟨e, c', rfl⟩ : ∃ (e : Fin E) (c' : Fin D), j = ix2 e c' := ⟨j 0, j 1, eq_ix2 j⟩
    obtain ⟨hr, rfl⟩ := (rowScatter_resultIdx_iff wf idx e c' n c).mp hj
    exact ⟨hr, rfl⟩
  refine Finset.sum_nbij' (fun j => (j 0 : Fin E)) (fun e => ix2 e c) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowScatter_resultIdx_iff wf idx e c n c).mpr ⟨(Finset.mem_filter.mp he).2, rfl⟩⟩
  · intro j hj
    exact (key j (Finset.mem_filter.mp hj).2).2
  · intro e _
    rfl
  · intro j hj
    exact congrArg upd (key j (Finset.mem_filter.mp hj).2).2.symm

end Rows

/-! ### The middle axis of a rank-3 array -/

/-- The dimension numbers of `x.at[:, idx, :].add(upd)` for an operand `[B, N, D]`, scatter indices `[E, 1]` and
    updates `[B, E, D]`. -/
abbrev midScatterDims (B N D E : Nat)
    (wf : ScatterDims.WF ⟨3, ![B, N, D]⟩ ⟨2, ![E, 1]⟩ ⟨3, ![B, E, D]⟩ [0, 2] [1] [1] 1) :
    ScatterDims ⟨3, ![B, N, D]⟩ ⟨2, ![E, 1]⟩ ⟨3, ![B, E, D]⟩ where
  updateWindowDims := [0, 2]
  insertedWindowDims := [1]
  scatterDimsToOperandDims := [1]
  indexVectorDim := 1
  wf := wf

section Mid
variable {B N D E w : Nat} (wf : ScatterDims.WF ⟨3, ![B, N, D]⟩ ⟨2, ![E, 1]⟩ ⟨3, ![B, E, D]⟩ [0, 2] [1] [1] 1)
  (idx : IVec ⟨2, ![E, 1]⟩ w)

/-- On the middle axis the window of update `(b, e, o)` starts at edge `e`'s integer, read signed, … -/
theorem midScatter_start1 (b : Fin B) (e : Fin E) (o : Fin D) :
    (midScatterDims B N D E wf).start (ix3 b e o) idx 1 = (idx (ix2 e (0 : Fin 1))).toInt := by
  unfold ScatterDims.start
  rw [dif_pos (show (1 : Fin 3) ∈ (midScatterDims B N D E wf).scatterDimsToOperandDims from List.mem_singleton.mpr rfl)]
  have hsi : (midScatterDims B N D E wf).siIdx (ix3 b e o) ⟨List.idxOf (1 : Fin 3) (midScatterDims B N D E wf).scatterDimsToOperandDims,
      List.idxOf_lt_length_iff.2 (List.mem_singleton.mpr rfl)⟩ = ix2 e (0 : Fin 1) := by
    funext b'; refine Fin.ext ?_
    match b' with
    | ⟨0, _⟩ => rfl
    | ⟨1, _⟩ => rfl
  rw [hsi]

/-- … and on the outer axes at zero. -/
theorem midScatter_start0 (j : (⟨3, ![B, E, D]⟩ : Shape).Idx) : (midScatterDims B N D E wf).start j idx 0 = 0 := by
  unfold ScatterDims.start
  rw [dif_neg (show ¬ (0 : Fin 3) ∈ ([1] : List (Fin 3)) from by decide)]
theorem midScatter_start2 (j : (⟨3, ![B, E, D]⟩ : Shape).Idx) : (midScatterDims B N D E wf).start j idx 2 = 0 := by
  unfold ScatterDims.start
  rw [dif_neg (show ¬ (2 : Fin 3) ∈ ([1] : List (Fin 3)) from by decide)]

/-- The window coordinates are the update's outer coordinates, and zero on the middle axis. -/
theorem midScatter_window0 (b : Fin B) (e : Fin E) (o : Fin D) : (midScatterDims B N D E wf).window (ix3 b e o) 0 = b.val := by
  have hk : (0 : Fin 3) ∈ (midScatterDims B N D E wf).sKept :=
    (mem_sKept_iff _ _).mpr (show ¬ (0 : Fin 3) ∈ ([1] : List (Fin 3)) from by decide)
  unfold ScatterDims.window
  rw [dif_pos hk]
  rfl
theorem midScatter_window1 (j : (⟨3, ![B, E, D]⟩ : Shape).Idx) : (midScatterDims B N D E wf).window j 1 = 0 := by
  unfold ScatterDims.window
  rw [dif_neg (fun h => ((mem_sKept_iff _ _).mp h) (List.mem_singleton.mpr rfl))]
theorem midScatter_window2 (b : Fin B) (e : Fin E) (o : Fin D) : (midScatterDims B N D E wf).window (ix3 b e o) 2 = o.val := by
  have hk : (2 : Fin 3) ∈ (midScatterDims B N D E wf).sKept :=
    (mem_sKept_iff _ _).mpr (show ¬ (2 : Fin 3) ∈ ([1] : List (Fin 3)) from by decide)
  unfold ScatterDims.window
  rw [dif_pos hk]
  rfl

/-- WHERE UPDATE `(b, e, o)` LANDS: at `(b', n, o')` exactly when edge `e`'s integer, read signed, is `n` and the outer
    coordinates agree. -/
theorem midScatter_resultIdx_iff (b : Fin B) (e : Fin E) (o : Fin D) (b' : Fin B) (n : Fin N) (o' : Fin D) :
    (midScatterDims B N D E wf).resultIdx? (ix3 b e o) idx = some (ix3 b' n o')
      ↔ (idx (ix2 e (0 : Fin 1))).toInt = (n.val : Int) ∧ b = b' ∧ o = o' := by
  have h0 : (midScatterDims B N D E wf).start (ix3 b e o) idx 0 + ((midScatterDims B N D E wf).window (ix3 b e o) 0 : Int)
      = (b.val : Int) := by
    rw [midScatter_start0, midScatter_window0]; simp
  have h1 : (midScatterDims B N D E wf).start (ix3 b e o) idx 1 + ((midScatterDims B N D E wf).window (ix3 b e o) 1 : Int)
      = (idx (ix2 e (0 : Fin 1))).toInt := by
    rw [midScatter_start1, midScatter_window1]; simp
  have h2 : (midScatterDims B N D E wf).start (ix3 b e o) idx 2 + ((midScatterDims B N D E wf).window (ix3 b e o) 2 : Int)
      = (o.val : Int) := by
    rw [midScatter_start2, midScatter_window2]; simp
  constructor
  · intro hs
    unfold ScatterDims.resultIdx? at hs
    split at hs
    · rename_i h
      have hf := Option.some.inj hs
      have e0 : ((midScatterDims B N D E wf).start (ix3 b e o) idx 0 + ((midScatterDims B N D E wf).window (ix3 b e o) 0 : Int)).toNat
          = b'.val := congrArg Fin.val (congrFun hf 0)
      have e1 : ((midScatterDims B N D E wf).start (ix3 b e o) idx 1 + ((midScatterDims B N D E wf).window (ix3 b e o) 1 : Int)).toNat
          = n.val := congrArg Fin.val (congrFun hf 1)
      have e2 : ((midScatterDims B N D E wf).start (ix3 b e o) idx 2 + ((midScatterDims B N D E wf).window (ix3 b e o) 2 : Int)).toNat
          = o'.val := congrArg Fin.val (congrFun hf 2)
      have b1 : 0 ≤ (midScatterDims B N D E wf).start (ix3 b e o) idx 1 + ((midScatterDims B N D E wf).window (ix3 b e o) 1 : Int) :=
        (h 1).1
      rw [h0] at e0
      rw [h1] at e1 b1
      rw [h2] at e2
      exact ⟨by omega, Fin.ext (by omega), Fin.ext (by omega)⟩
    · exact absurd hs (by simp)
  · rintro ⟨hr, rfl, rfl⟩
    have hb : b.val < B := b.isLt
    have hn : n.val < N := n.isLt
    have ho : o.val < D := o.isLt
    have h : ∀ a, 0 ≤ (midScatterDims B N D E wf).start (ix3 b e o) idx a + ((midScatterDims B N D E wf).window (ix3 b e o) a : Int)
        ∧ (midScatterDims B N D E wf).start (ix3 b e o) idx a + ((midScatterDims B N D E wf).window (ix3 b e o) a : Int)
          < ((⟨3, ![B, N, D]⟩ : Shape).size a : Int) := by
      intro a
      match a with
      | ⟨0, _⟩ =>
        show 0 ≤ (midScatterDims B N D E wf).start (ix3 b e o) idx 0 + ((midScatterDims B N D E wf).window (ix3 b e o) 0 : Int)
          ∧ (midScatterDims B N D E wf).start (ix3 b e o) idx 0 + ((midScatterDims B N D E wf).window (ix3 b e o) 0 : Int) < (B : Int)
        rw [h0]; omega
      | ⟨1, _⟩ =>
        show 0 ≤ (midScatterDims B N D E wf).start (ix3 b e o) idx 1 + ((midScatterDims B N D E wf).window (ix3 b e o) 1 : Int)
          ∧ (midScatterDims B N D E wf).start (ix3 b e o) idx 1 + ((midScatterDims B N D E wf).window (ix3 b e o) 1 : Int) < (N : Int)
        rw [h1, hr]; omega
      | ⟨2, _⟩ =>
        show 0 ≤ (midScatterDims B N D E wf).start (ix3 b e o) idx 2 + ((midScatterDims B N D E wf).window (ix3 b e o) 2 : Int)
          ∧ (midScatterDims B N D E wf).start (ix3 b e o) idx 2 + ((midScatterDims B N D E wf).window (ix3 b e o) 2 : Int) < (D : Int)
        rw [h2]; omega
    unfold ScatterDims.resultIdx?
    rw [dif_pos h]
    refine congrArg some (funext fun a => Fin.ext ?_)
    match a with
    | ⟨0, _⟩ =>
      show ((midScatterDims B N D E wf).start (ix3 b e o) idx 0 + ((midScatterDims B N D E wf).window (ix3 b e o) 0 : Int)).toNat = b.val
      rw [h0]; omega
    | ⟨1, _⟩ =>
      show ((midScatterDims B N D E wf).start (ix3 b e o) idx 1 + ((midScatterDims B N D E wf).window (ix3 b e o) 1 : Int)).toNat = n.val
      rw [h1, hr]; omega
    | ⟨2, _⟩ =>
      show ((midScatterDims B N D E wf).start (ix3 b e o) idx 2 + ((midScatterDims B N D E wf).window (ix3 b e o) 2 : Int)).toNat = o.val
      rw [h2]; omega

/-- THE MIDDLE AXIS ACCUMULATED at `(b, n, o)`: the operand there plus the updates `(b, e, o)` of the edges whose
    integer is `n` — the same edges as in the matrix layout. -/
theorem scatterAdd_mid_apply (x : (⟨3, ![B, N, D]⟩ : Shape).Idx → EReal) (upd : (⟨3, ![B, E, D]⟩ : Shape).Idx → EReal)
    (b : Fin B) (n : Fin N) (o : Fin D) :
    Ideal.hostScatterAdd (midScatterDims B N D E wf) x idx upd (ix3 b n o)
      = x (ix3 b n o) + ∑ e ∈ Finset.univ.filter (fun e : Fin E => (idx (ix2 e (0 : Fin 1))).toInt = (n.val : Int)),
          upd (ix3 b e o) := by
  unfold Ideal.hostScatterAdd
  refine congrArg (x (ix3 b n o) + ·) ?_
  have key : ∀ j : (⟨3, ![B, E, D]⟩ : Shape).Idx, (midScatterDims B N D E wf).resultIdx? j idx = some (ix3 b n o) →
      (idx (ix2 (j 1 : Fin E) (0 : Fin 1))).toInt = (n.val : Int) ∧ ix3 b (j 1 : Fin E) o = j := by
    intro j hj
    obtain ⟨b', e, o', rfl⟩ : ∃ (b' : Fin B) (e : Fin E) (o' : Fin D), j = ix3 b' e o' := ⟨j 0, j 1, j 2, eq_ix3 j⟩
    obtain ⟨hr, rfl, rfl⟩ := (midScatter_resultIdx_iff wf idx b' e o' b n o).mp hj
    exact ⟨hr, rfl⟩
  refine Finset.sum_nbij' (fun j => (j 1 : Fin E)) (fun e => ix3 b e o) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (midScatter_resultIdx_iff wf idx b e o b n o).mpr ⟨(Finset.mem_filter.mp he).2, rfl, rfl⟩⟩
  · intro j hj
    exact (key j (Finset.mem_filter.mp hj).2).2
  · intro e _
    rfl
  · intro j hj
    exact congrArg upd (key j (Finset.mem_filter.mp hj).2).2.symm

end Mid

end Scatter

end Cert.Lib

end
-- ==== Proof.LibEdgeGatherVec.lean ====
/-
  A gather of scalars from a vector, keyed by ONE integer per edge. Independent of any program.

  An edge list of length `E` carries, per edge `e`, one integer `idx[e, 0]` (the start indices have shape `[E, 1]`).
  Elements of a vector `x : [N]` taken at the edges' integers (`x[idx]`: no offset axis, collapsed axis 0, slices
  `[1]`) give `[E]`, whose element `e` is `x` at `clampRow idx e` — the integer read signed and clamped into
  `[0, N − 1]`, as the gather clamps every start index.  This is the matrix gather of rows with the column axis
  removed: the same place is read, and nothing is left of the slice but one element.
-/
import proofs.«125133_j10599979287287_2_alg».proof.Proof.LibEdgeGatherScatter

noncomputable section

namespace Cert.Lib

open Idealize.ShloMosaic Idealize.ShloMosaic.ValueIdx

/-- The dimension numbers of `x[idx]` for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- ELEMENTS OF A VECTOR at `e`: the operand at `clampRow idx e`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN idx e)) := by
  unfold Host.gather
  congr 1
  funext a
  refine Fin.ext ?_
  match a with
  | ⟨0, _⟩ =>
    show (vecGatherDims N E wf).start (ix1 e) idx 0 + (vecGatherDims N E wf).batchCoord (ix1 e) 0
        + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.Lib

end
-- ==== Proof.LibConcatPair.lean ====
/-
  Two arrays joined along one axis, read at an index.

  A matrix of A columns joined on its right to a matrix of B columns (a concatenation along axis 1 into T columns): at
  column j < A the joined matrix reads the first at column j, and at column A + i it reads the second at column i.  The same
  for two vectors joined end to end (a concatenation along axis 0 of rank-1 arrays).  Any element type.
-/
import Idealize.ShloMosaic.Lib.Pipeline.Value
import Idealize.ShloMosaic.Lib.ValueIdx

namespace Cert.Lib.ConcatPair

open Idealize.ShloMosaic Idealize.ShloMosaic.ValueIdx

variable {α : Type}

/-- Two matrices joined side by side, read in the FIRST one's columns. -/
theorem cols_left {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (j : Fin T) (i : Fin A) (hi : i.val = j.val) :
    concatenate ⟨2, ![R, T]⟩ 1 [⟨⟨2, ![R, A]⟩, x₁⟩, ⟨⟨2, ![R, B]⟩, x₂⟩] h (ix2 r j) = x₁ (ix2 r i) :=
  concatenate_pair_apply_left (1 : Fin 2) x₁ x₂ h (ix2 r j) rfl (ix2 r i) (fun b => match b with
    | ⟨0, _⟩ => rfl
    | ⟨1, _⟩ => hi)

/-- Two matrices joined side by side, read in the SECOND one's columns: column A + i of the join is its column i. -/
theorem cols_right {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (j : Fin T) (i : Fin B) (hi : i.val + A = j.val) :
    concatenate ⟨2, ![R, T]⟩ 1 [⟨⟨2, ![R, A]⟩, x₁⟩, ⟨⟨2, ![R, B]⟩, x₂⟩] h (ix2 r j) = x₂ (ix2 r i) :=
  concatenate_pair_apply_right (1 : Fin 2) x₁ x₂ h (ix2 r j) rfl rfl (ix2 r i) (fun b => match b with
    | ⟨0, _⟩ => fun _ => rfl
    | ⟨1, _⟩ => fun hb => absurd rfl hb) hi

/-- Two vectors joined end to end, read in the FIRST one's stretch. -/
theorem vec_left {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (j : Fin T) (i : Fin A) (hi : i.val = j.val) :
    concatenate ⟨1, ![T]⟩ 0 [⟨⟨1, ![A]⟩, x₁⟩, ⟨⟨1, ![B]⟩, x₂⟩] h (ix1 j) = x₁ (ix1 i) :=
  concatenate_pair_apply_left (0 : Fin 1) x₁ x₂ h (ix1 j) rfl (ix1 i) (fun b => match b with
    | ⟨0, _⟩ => hi)

/-- Two vectors joined end to end, read in the SECOND one's stretch: position A + i of the join is its position i. -/
theorem vec_right {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (j : Fin T) (i : Fin B) (hi : i.val + A = j.val) :
    concatenate ⟨1, ![T]⟩ 0 [⟨⟨1, ![A]⟩, x₁⟩, ⟨⟨1, ![B]⟩, x₂⟩] h (ix1 j) = x₂ (ix1 i) :=
  concatenate_pair_apply_right (0 : Fin 1) x₁ x₂ h (ix1 j) rfl rfl (ix1 i) (fun b => match b with
    | ⟨0, _⟩ => fun hb => absurd rfl hb) hi

end Cert.Lib.ConcatPair
-- ==== Proof.LibBandSplit.lean ====
/-
  Sums over an index range cut into bands, and three matrices joined side by side read at an index.

  A sum over the 2n + 1 positions 0 … 2n is the sum over the first n, plus the sum over the next n, plus the last
  term; a sum over 2n positions is the sum over the first n plus the sum over the next n. Only the laws of a commutative
  monoid are used, so the statements hold over the extended reals with no finiteness side condition.

  Three matrices of A, B and C columns joined side by side (a concatenation along axis 1 into T columns): at column
  j < A the join reads the first at column j, at column A + i it reads the second at column i, and at column A + B + i
  it reads the third at column i. Any element type.
-/
import Mathlib.Algebra.BigOperators.Fin
import Idealize.ShloMosaic.Lib.Pipeline.Value
import Idealize.ShloMosaic.Lib.ValueIdx

namespace Cert.Lib

open Idealize.ShloMosaic Idealize.ShloMosaic.ValueIdx

/-- A sum over 2n positions is the sum over the first n plus the sum over the last n. -/
theorem sum_two_bands {M : Type*} [AddCommMonoid M] (n : ℕ) (f : Fin (n + n) → M) :
    ∑ k, f k = (∑ k : Fin n, f ⟨k.val, by have := k.isLt; omega⟩) + (∑ k : Fin n, f ⟨n + k.val, by have := k.isLt; omega⟩) := by
  rw [Fin.sum_univ_add]
  rfl

/-- A sum over 2n + 1 positions is the sum over the first n, plus the sum over the next n, plus the last term. -/
theorem sum_two_bands_and_last {M : Type*} [AddCommMonoid M] (n : ℕ) (f : Fin (n + n + 1) → M) :
    ∑ k, f k = (∑ k : Fin n, f ⟨k.val, by have := k.isLt; omega⟩) + (∑ k : Fin n, f ⟨n + k.val, by have := k.isLt; omega⟩)
      + f ⟨n + n, by omega⟩ := by
  rw [Fin.sum_univ_castSucc, Fin.sum_univ_add]
  rfl

namespace ConcatTriple

variable {α : Type}

/-- Three matrices joined side by side, read in the FIRST one's columns. -/
theorem cols_first {R A B C T : Nat} (x₁ : (⟨2, ![R, A]⟩ : Shape).Idx → α) (x₂ : (⟨2, ![R, B]⟩ : Shape).Idx → α)
    (x₃ : (⟨2, ![R, C]⟩ : Shape).Idx → α)
    (h : Shape.Concatenates [⟨2, ![R, A]⟩, ⟨2, ![R, B]⟩, ⟨2, ![R, C]⟩] ⟨2, ![R, T]⟩ 1) (r : Fin R) (j : Fin T) (i : Fin A)
    (hi : i.val = j.val) :
    concatenate ⟨2, ![R, T]⟩ 1 [⟨⟨2, ![R, A]⟩, x₁⟩, ⟨⟨2, ![R, B]⟩, x₂⟩, ⟨⟨2, ![R, C]⟩, x₃⟩] h (ix2 r j) = x₁ (ix2 r i) :=
  concatenate_apply_piece (t := ⟨2, ![R, T]⟩) (1 : Fin 2) [⟨⟨2, ![R, A]⟩, x₁⟩, ⟨⟨2, ![R, B]⟩, x₂⟩, ⟨⟨2, ![R, C]⟩, x₃⟩] h (ix2 r j) 0 (Nat.zero_lt_succ _) ⟨2, ![R, A]⟩ x₁ rfl rfl 0 rfl (ix2 r i)
    (fun b => match b with
      | ⟨0, _⟩ => fun _ => rfl
      | ⟨1, _⟩ => fun hb => absurd rfl hb)
    (by show 0 + i.val = j.val; omega)

/-- Three matrices joined side by side, read in the SECOND one's columns: column A + i of the join is its column i. -/
theorem cols_second {R A B C T : Nat} (x₁ : (⟨2, ![R, A]⟩ : Shape).Idx → α) (x₂ : (⟨2, ![R, B]⟩ : Shape).Idx → α)
    (x₃ : (⟨2, ![R, C]⟩ : Shape).Idx → α)
    (h : Shape.Concatenates [⟨2, ![R, A]⟩, ⟨2, ![R, B]⟩, ⟨2, ![R, C]⟩] ⟨2, ![R, T]⟩ 1) (r : Fin R) (j : Fin T) (i : Fin B)
    (hi : A + i.val = j.val) :
    concatenate ⟨2, ![R, T]⟩ 1 [⟨⟨2, ![R, A]⟩, x₁⟩, ⟨⟨2, ![R, B]⟩, x₂⟩, ⟨⟨2, ![R, C]⟩, x₃⟩] h (ix2 r j) = x₂ (ix2 r i) :=
  concatenate_apply_piece (t := ⟨2, ![R, T]⟩) (1 : Fin 2) [⟨⟨2, ![R, A]⟩, x₁⟩, ⟨⟨2, ![R, B]⟩, x₂⟩, ⟨⟨2, ![R, C]⟩, x₃⟩] h (ix2 r j) 1 (Nat.succ_lt_succ (Nat.zero_lt_succ _)) ⟨2, ![R, B]⟩ x₂ rfl rfl A
    (by show A + 0 = A; rfl) (ix2 r i)
    (fun b => match b with
      | ⟨0, _⟩ => fun _ => rfl
      | ⟨1, _⟩ => fun hb => absurd rfl hb)
    hi

/-- Three matrices joined side by side, read in the THIRD one's columns: column A + B + i of the join is its column i. -/
theorem cols_third {R A B C T : Nat} (x₁ : (⟨2, ![R, A]⟩ : Shape).Idx → α) (x₂ : (⟨2, ![R, B]⟩ : Shape).Idx → α)
    (x₃ : (⟨2, ![R, C]⟩ : Shape).Idx → α)
    (h : Shape.Concatenates [⟨2, ![R, A]⟩, ⟨2, ![R, B]⟩, ⟨2, ![R, C]⟩] ⟨2, ![R, T]⟩ 1) (r : Fin R) (j : Fin T) (i : Fin C)
    (hi : A + B + i.val = j.val) :
    concatenate ⟨2, ![R, T]⟩ 1 [⟨⟨2, ![R, A]⟩, x₁⟩, ⟨⟨2, ![R, B]⟩, x₂⟩, ⟨⟨2, ![R, C]⟩, x₃⟩] h (ix2 r j) = x₃ (ix2 r i) :=
  concatenate_apply_piece (t := ⟨2, ![R, T]⟩) (1 : Fin 2) [⟨⟨2, ![R, A]⟩, x₁⟩, ⟨⟨2, ![R, B]⟩, x₂⟩, ⟨⟨2, ![R, C]⟩, x₃⟩] h (ix2 r j) 2 (Nat.succ_lt_succ (Nat.succ_lt_succ (Nat.zero_lt_succ _))) ⟨2, ![R, C]⟩ x₃ rfl rfl (A + B)
    (by show A + (B + 0) = A + B; rfl) (ix2 r i)
    (fun b => match b with
      | ⟨0, _⟩ => fun _ => rfl
      | ⟨1, _⟩ => fun hb => absurd rfl hb)
    hi

end ConcatTriple

end Cert.Lib
-- ==== Proof.LibEdgeStack.lean ====
/-
  An edge list read through a PAIR of integers, an accumulation into a vector, and a three-column accumulation taken
  apart. Independent of any program.

  An edge list of length `E` carries, per edge `e`, integers in the columns of a start-index matrix.

  1. PAIR GATHER.  A one-column matrix `x : [N, 1]` read through start indices `[E, 2]` (both operand axes collapsed,
     slices `[1, 1]`, start index map `[0, 1]`) gives `[E]`, whose element `e` is `x` at row `idx[e, 0]` read signed and
     clamped into `[0, N − 1]`, column `0`: the second component is clamped into `[0, 1 − 1] = [0, 0]`, so it is `0`
     whatever `idx[e, 1]` holds.

  2. ACCUMULATION INTO A VECTOR over the extended reals.  Updates `[E]` added into `x : [N]` at the places the edges'
     integers `idx[e, 0]` name (no window axis, inserted axis 0) leave at `n` the value `x n` plus the sum, over the edges
     whose integer, read signed, IS `n`, of the update at `e`; an edge whose integer is outside `[0, N)` lands nowhere.

  3. The pair gather through start indices whose two columns are `a` and `b` (joined side by side) is the vector gather,
     through `a` alone, of the column flattened to a vector: both read `x` at `(clampRow a e, 0)`.

  4. Three vectors `C`, `S`, `O` over the edges, each stood up as a column and the three joined side by side, accumulated
     into a constant `[N, 3]` matrix at the rows the edges' integers name: column `k` of the result at row `n` is the
     constant plus the sum of the `k`-th vector over the edges whose integer is `n` — the columns do not mix.  Hence
     columns `0` and `1`, each cut out, flattened, stood up again and the two joined, are the accumulation of the
     two-column matrix `[C | S]` into the constant `[N, 2]` matrix; and column `2`, cut out and flattened, is the vector
     accumulation of `O` of item 2.
-/
import proofs.«125133_j10599979287287_2_alg».proof.Proof.LibEdgeGatherScatter
import proofs.«125133_j10599979287287_2_alg».proof.Proof.LibEdgeGatherVec
import proofs.«125133_j10599979287287_2_alg».proof.Proof.LibConcatPair
import proofs.«125133_j10599979287287_2_alg».proof.Proof.LibBandSplit
import Idealize.ShloMosaic.Lib.ValueLayout

noncomputable section

namespace Cert.Lib

open Idealize.ShloMosaic Idealize.ShloMosaic.ValueIdx

/-! ## The gather through a pair of integers -/

/-- The dimension numbers of the gather that reads one element of `x : [N, 1]` per edge through start indices `[E, 2]`:
    both operand axes collapsed, the start index's two components going to axes 0 and 1. -/
abbrev pairGatherDims (N E : Nat)
    (wf : GatherDims.WF ⟨2, ![N, 1]⟩ ⟨2, ![E, 2]⟩ ⟨1, ![E]⟩ [] [0, 1] [] [0, 1] [] 1 ![1, 1]) :
    GatherDims ⟨2, ![N, 1]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- ONE ELEMENT OF A ONE-COLUMN MATRIX at `e`: the operand at row `idx[e, 0]` (signed, clamped into `[0, N − 1]`),
    column `0` — the column component is clamped into `[0, 0]`. -/
theorem gather_pair_apply {α : Type} {N E w : Nat} (hN : 0 < N)
    (wf : GatherDims.WF ⟨2, ![N, 1]⟩ ⟨2, ![E, 2]⟩ ⟨1, ![E]⟩ [] [0, 1] [] [0, 1] [] 1 ![1, 1])
    (x : (⟨2, ![N, 1]⟩ : Shape).Idx → α) (idx : IVec ⟨2, ![E, 2]⟩ w) (e : Fin E) :
    Host.gather (pairGatherDims N E wf) x idx (ix1 e)
      = x (ix2 (⟨min (idx (ix2 e (0 : Fin 2))).toInt.toNat (N - 1), by omega⟩ : Fin N) (0 : Fin 1)) := by
  unfold Host.gather
  congr 1
  funext a
  refine Fin.ext ?_
  match a with
  | ⟨0, _⟩ =>
    show (pairGatherDims N E wf).start (ix1 e) idx 0 + (pairGatherDims N E wf).batchCoord (ix1 e) 0
        + (pairGatherDims N E wf).offCoord (ix1 e) 0 = _
    rw [GatherDims.batchCoord_eq_zero _ _ _ List.not_mem_nil,
      GatherDims.offCoord_eq_zero _ _ _ (fun h => ((GatherDims.mem_sKept _ _).mp h).1 (show (0 : Fin 2) ∈ ([0, 1] : List (Fin 2)) from by decide))]
    simp only [Nat.add_zero]
    unfold GatherDims.start
    rw [dif_pos (show (0 : Fin 2) ∈ (pairGatherDims N E wf).startIndexMap from (show (0 : Fin 2) ∈ ([0, 1] : List (Fin 2)) from by decide))]
    have hsi : (pairGatherDims N E wf).siIdx (ix1 e) ⟨List.idxOf (0 : Fin 2) (pairGatherDims N E wf).startIndexMap,
        List.idxOf_lt_length_iff.2 (show (0 : Fin 2) ∈ ([0, 1] : List (Fin 2)) from by decide)⟩ = ix2 e (0 : Fin 2) := by
      funext b; refine Fin.ext ?_
      match b with
      | ⟨0, _⟩ => rfl
      | ⟨1, _⟩ => rfl
    rw [hsi]
    rfl
  | ⟨1, _⟩ =>
    show (pairGatherDims N E wf).start (ix1 e) idx 1 + (pairGatherDims N E wf).batchCoord (ix1 e) 1
        + (pairGatherDims N E wf).offCoord (ix1 e) 1 = 0
    rw [GatherDims.batchCoord_eq_zero _ _ _ List.not_mem_nil,
      GatherDims.offCoord_eq_zero _ _ _ (fun h => ((GatherDims.mem_sKept _ _).mp h).1 (show (1 : Fin 2) ∈ ([0, 1] : List (Fin 2)) from by decide))]
    simp only [Nat.add_zero]
    have hle := (pairGatherDims N E wf).start_le (ix1 e) idx 1
    have h0 : (⟨2, ![N, 1]⟩ : Shape).size 1 - (pairGatherDims N E wf).sliceSizes 1 = 0 := rfl
    omega

/-! ## The accumulating scatter into a vector, over the extended reals -/

/-- The dimension numbers of the accumulation of updates `[E]` into an operand `[N]` at scatter indices `[E, 1]`:
    no window axis, the operand's one axis inserted. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w)

/-- The window of update `e` starts at edge `e`'s integer, read signed, … -/
theorem vecScatter_start0 (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and has no extent: the window coordinate is zero. -/
theorem vecScatter_window0 (j : (⟨1, ![E]⟩ : Shape).Idx) : (vecScatterDims N E wf).window j 0 = 0 := by
  unfold ScatterDims.window
  rw [dif_neg (fun h => ((mem_sKept_iff _ _).mp h) (List.mem_singleton.mpr rfl))]

/-- WHERE UPDATE `e` LANDS: at `n` exactly when edge `e`'s integer, read signed, is `n`. -/
theorem vecScatter_resultIdx_iff (e : Fin E) (n : Fin N) :
    (vecScatterDims N E wf).resultIdx? (ix1 e) idx = some (ix1 n)
      ↔ (idx (ix2 e (0 : Fin 1))).toInt = (n.val : Int) := by
  have h0 : (vecScatterDims N E wf).start (ix1 e) idx 0 + ((vecScatterDims N E wf).window (ix1 e) 0 : Int)
      = (idx (ix2 e (0 : Fin 1))).toInt := by
    rw [vecScatter_start0, vecScatter_window0]; simp
  constructor
  · intro hs
    unfold ScatterDims.resultIdx? at hs
    split at hs
    · rename_i h
      have hf := Option.some.inj hs
      have e0 : ((vecScatterDims N E wf).start (ix1 e) idx 0 + ((vecScatterDims N E wf).window (ix1 e) 0 : Int)).toNat
          = n.val := congrArg Fin.val (congrFun hf 0)
      have b0 : 0 ≤ (vecScatterDims N E wf).start (ix1 e) idx 0 + ((vecScatterDims N E wf).window (ix1 e) 0 : Int) :=
        (h 0).1
      rw [h0] at e0 b0
      omega
    · exact absurd hs (by simp)
  · intro hr
    have hn : n.val < N := n.isLt
    have h : ∀ a, 0 ≤ (vecScatterDims N E wf).start (ix1 e) idx a + ((vecScatterDims N E wf).window (ix1 e) a : Int)
        ∧ (vecScatterDims N E wf).start (ix1 e) idx a + ((vecScatterDims N E wf).window (ix1 e) a : Int)
          < ((⟨1, ![N]⟩ : Shape).size a : Int) := by
      intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [h0, hr]; omega
    unfold ScatterDims.resultIdx?
    rw [dif_pos h]
    refine congrArg some (funext fun a => Fin.ext ?_)
    match a with
    | ⟨0, _⟩ =>
      show ((vecScatterDims N E wf).start (ix1 e) idx 0 + ((vecScatterDims N E wf).window (ix1 e) 0 : Int)).toNat = n.val
      rw [h0, hr]; omega

/-- ELEMENTS ACCUMULATED INTO A VECTOR at `n`: the operand there plus the updates `e` of the edges whose integer is `n`. -/
theorem scatterAdd_vec_apply (x : (⟨1, ![N]⟩ : Shape).Idx → EReal) (upd : (⟨1, ![E]⟩ : Shape).Idx → EReal) (n : Fin N) :
    Ideal.hostScatterAdd (vecScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  refine congrArg (x (ix1 n) + ·) ?_
  have key : ∀ j : (⟨1, ![E]⟩ : Shape).Idx, (vecScatterDims N E wf).resultIdx? j idx = some (ix1 n) →
      (idx (ix2 (j 0 : Fin E) (0 : Fin 1))).toInt = (n.val : Int) ∧ ix1 (j 0 : Fin E) = j := by
    intro j hj
    obtain ⟨e, rfl⟩ : ∃ e : Fin E, j = ix1 e := ⟨j 0, eq_ix1 j⟩
    exact ⟨(vecScatter_resultIdx_iff wf idx e n).mp hj, rfl⟩
  refine Finset.sum_nbij' (fun j => (j 0 : Fin E)) (fun e => ix1 e) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (vecScatter_resultIdx_iff wf idx e n).mpr (Finset.mem_filter.mp he).2⟩
  · intro j hj
    exact (key j (Finset.mem_filter.mp hj).2).2
  · intro e _
    rfl
  · intro j hj
    exact congrArg upd (key j (Finset.mem_filter.mp hj).2).2.symm

end Vec

/-! ## A one-column matrix flattened, a vector stood up as a column, a column cut out -/

section Layout
variable {α : Type}

/-- An `[N, 1]` matrix cast to `[N]` reads, at `r`, the matrix at `(r, 0)`. -/
theorem shapeCast_col_apply {N : Nat} (x : (⟨2, ![N, 1]⟩ : Shape).Idx → α)
    (h : (⟨2, ![N, 1]⟩ : Shape).ShapeCasts ⟨1, ![N]⟩) (r : Fin N) :
    shapeCast ⟨1, ![N]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- A vector `[M]` stood up as a one-column matrix `[M, 1]` (broadcast along axis 0) reads, at `(r, c)`, the vector
    at `r`. -/
theorem broadcastInDim_col_apply {M : Nat} (v : (⟨1, ![M]⟩ : Shape).Idx → α)
    (hb : (⟨1, ![M]⟩ : Shape).BroadcastsInDim ⟨2, ![M, 1]⟩ (![0] : Fin 1 → Fin 2)) (r : Fin M) (c : Fin 1) :
    broadcastInDim ⟨2, ![M, 1]⟩ ![0] hb v (ix2 r c) = v (ix1 r) :=
  broadcastInDim_apply _ hb v _ _ (fun a => by
    match a with
    | ⟨0, _⟩ =>
      show r.val = if M = 1 then 0 else r.val
      have hr := r.isLt
      split
      · omega
      · rfl)

/-- Column `k` of a matrix `[N, D]`, cut out, flattened to a vector and stood up as a column again, reads, at
    `(n, c)`, the matrix at `(n, k)`. -/
theorem col_cut_apply {N D : Nat} (k : Nat) (X : (⟨2, ![N, D]⟩ : Shape).Idx → α)
    (hs : (⟨2, ![N, D]⟩ : Shape).Slices ![0, k] ⟨2, ![N, 1]⟩)
    (hsc : (⟨2, ![N, 1]⟩ : Shape).ShapeCasts ⟨1, ![N]⟩)
    (hb : (⟨1, ![N]⟩ : Shape).BroadcastsInDim ⟨2, ![N, 1]⟩ (![0] : Fin 1 → Fin 2))
    (n : Fin N) (c : Fin 1) (col : Fin D) (hcol : col.val = k) :
    broadcastInDim ⟨2, ![N, 1]⟩ ![0] hb (shapeCast ⟨1, ![N]⟩ (extractStridedSlice ⟨2, ![N, 1]⟩ ![0, k] X hs) hsc) (ix2 n c)
      = X (ix2 n col) := by
  rw [broadcastInDim_col_apply, shapeCast_col_apply, slice2_axis1_apply k X hs n (0 : Fin 1) col (by rw [hcol]; rfl)]

end Layout

/-! ## The pair gather is the vector gather of the flattened column -/

/-- Start indices whose two columns are `a` and `b`: the pair gather of `θ : [N, 1]` through them is the vector gather,
    through `a`, of `θ` flattened to `[N]` — both read `θ` at `(clampRow a e, 0)`. -/
theorem gather_pair_concat_eq_gather_vec {α : Type} {N E w : Nat}
    (wfR : GatherDims.WF ⟨2, ![N, 1]⟩ ⟨2, ![E, 2]⟩ ⟨1, ![E]⟩ [] [0, 1] [] [0, 1] [] 1 ![1, 1])
    (wfK : GatherDims.WF ⟨1, ![N]⟩ ⟨2, ![E, 1]⟩ ⟨1, ![E]⟩ [] [0] [] [0] [] 1 ![1])
    (θ : (⟨2, ![N, 1]⟩ : Shape).Idx → α) (a b : IVec ⟨2, ![E, 1]⟩ w)
    (hc : Shape.Concatenates [⟨2, ![E, 1]⟩, ⟨2, ![E, 1]⟩] ⟨2, ![E, 2]⟩ 1)
    (hsc : (⟨2, ![N, 1]⟩ : Shape).ShapeCasts ⟨1, ![N]⟩) (e : Fin E) :
    Host.gather (pairGatherDims N E wfR) θ
        (concatenate ⟨2, ![E, 2]⟩ 1 [⟨⟨2, ![E, 1]⟩, a⟩, ⟨⟨2, ![E, 1]⟩, b⟩] hc) (ix1 e)
      = Host.gather (vecGatherDims N E wfK) (shapeCast ⟨1, ![N]⟩ θ hsc) a (ix1 e) := by
  have hN : 0 < N := (vecGatherDims N E wfK).slice_le 0
  rw [gather_pair_apply hN, gather_vec_apply hN, shapeCast_col_apply]
  have hcat := ConcatPair.cols_left a b hc e (0 : Fin 2) (0 : Fin 1) rfl
  refine congrArg θ (funext fun ax => Fin.ext ?_)
  match ax with
  | ⟨0, _⟩ => exact congrArg (fun v : BitVec w => min v.toInt.toNat (N - 1)) hcat
  | ⟨1, _⟩ => rfl

/-! ## A three-column accumulation taken apart -/

section Stack
variable {N E w : Nat} (z : EReal) (idx : IVec ⟨2, ![E, 1]⟩ w) (C S O : (⟨1, ![E]⟩ : Shape).Idx → EReal)
  (hbE : (⟨1, ![E]⟩ : Shape).BroadcastsInDim ⟨2, ![E, 1]⟩ (![0] : Fin 1 → Fin 2))

/-- Column 0 of the three-column accumulation at row `n`: the constant plus the sum of `C` over the edges whose
    integer is `n`. -/
theorem stack3_col0_apply (wf3 : ScatterDims.WF ⟨2, ![N, 3]⟩ ⟨2, ![E, 1]⟩ ⟨2, ![E, 3]⟩ [1] [0] [0] 1)
    (hc3 : Shape.Concatenates [⟨2, ![E, 1]⟩, ⟨2, ![E, 1]⟩, ⟨2, ![E, 1]⟩] ⟨2, ![E, 3]⟩ 1) (n : Fin N) :
    Ideal.hostScatterAdd (rowScatterDims N 3 E wf3) (fun _ => z) idx
        (concatenate ⟨2, ![E, 3]⟩ 1 [⟨⟨2, ![E, 1]⟩, broadcastInDim ⟨2, ![E, 1]⟩ ![0] hbE C⟩,
          ⟨⟨2, ![E, 1]⟩, broadcastInDim ⟨2, ![E, 1]⟩ ![0] hbE S⟩,
          ⟨⟨2, ![E, 1]⟩, broadcastInDim ⟨2, ![E, 1]⟩ ![0] hbE O⟩] hc3) (ix2 n (0 : Fin 3))
      = z + ∑ e ∈ Finset.univ.filter (fun e : Fin E => (idx (ix2 e (0 : Fin 1))).toInt = (n.val : Int)), C (ix1 e) := by
  rw [scatterAdd_rows_apply]
  refine congrArg (z + ·) (Finset.sum_congr rfl fun e _ => ?_)
  rw [ConcatTriple.cols_first _ _ _ hc3 e (0 : Fin 3) (0 : Fin 1) rfl, broadcastInDim_col_apply]

/-- Column 1 at row `n`: the constant plus the sum of `S` over the same edges. -/
theorem stack3_col1_apply (wf3 : ScatterDims.WF ⟨2, ![N, 3]⟩ ⟨2, ![E, 1]⟩ ⟨2, ![E, 3]⟩ [1] [0] [0] 1)
    (hc3 : Shape.Concatenates [⟨2, ![E, 1]⟩, ⟨2, ![E, 1]⟩, ⟨2, ![E, 1]⟩] ⟨2, ![E, 3]⟩ 1) (n : Fin N) :
    Ideal.hostScatterAdd (rowScatterDims N 3 E wf3) (fun _ => z) idx
        (concatenate ⟨2, ![E, 3]⟩ 1 [⟨⟨2, ![E, 1]⟩, broadcastInDim ⟨2, ![E, 1]⟩ ![0] hbE C⟩,
          ⟨⟨2, ![E, 1]⟩, broadcastInDim ⟨2, ![E, 1]⟩ ![0] hbE S⟩,
          ⟨⟨2, ![E, 1]⟩, broadcastInDim ⟨2, ![E, 1]⟩ ![0] hbE O⟩] hc3) (ix2 n (1 : Fin 3))
      = z + ∑ e ∈ Finset.univ.filter (fun e : Fin E => (idx (ix2 e (0 : Fin 1))).toInt = (n.val : Int)), S (ix1 e) := by
  rw [scatterAdd_rows_apply]
  refine congrArg (z + ·) (Finset.sum_congr rfl fun e _ => ?_)
  rw [ConcatTriple.cols_second _ _ _ hc3 e (1 : Fin 3) (0 : Fin 1) rfl, broadcastInDim_col_apply]

/-- Column 2 at row `n`: the constant plus the sum of `O` over the same edges. -/
theorem stack3_col2_apply (wf3 : ScatterDims.WF ⟨2, ![N, 3]⟩ ⟨2, ![E, 1]⟩ ⟨2, ![E, 3]⟩ [1] [0] [0] 1)
    (hc3 : Shape.Concatenates [⟨2, ![E, 1]⟩, ⟨2, ![E, 1]⟩, ⟨2, ![E, 1]⟩] ⟨2, ![E, 3]⟩ 1) (n : Fin N) :
    Ideal.hostScatterAdd (rowScatterDims N 3 E wf3) (fun _ => z) idx
        (concatenate ⟨2, ![E, 3]⟩ 1 [⟨⟨2, ![E, 1]⟩, broadcastInDim ⟨2, ![E, 1]⟩ ![0] hbE C⟩,
          ⟨⟨2, ![E, 1]⟩, broadcastInDim ⟨2, ![E, 1]⟩ ![0] hbE S⟩,
          ⟨⟨2, ![E, 1]⟩, broadcastInDim ⟨2, ![E, 1]⟩ ![0] hbE O⟩] hc3) (ix2 n (2 : Fin 3))
      = z + ∑ e ∈ Finset.univ.filter (fun e : Fin E => (idx (ix2 e (0 : Fin 1))).toInt = (n.val : Int)), O (ix1 e) := by
  rw [scatterAdd_rows_apply]
  refine congrArg (z + ·) (Finset.sum_congr rfl fun e _ => ?_)
  rw [ConcatTriple.cols_third _ _ _ hc3 e (2 : Fin 3) (0 : Fin 1) rfl, broadcastInDim_col_apply]

/-- Column 0 of the two-column accumulation at row `n`: the constant plus the sum of `C` over the edges whose integer
    is `n`. -/
theorem stack2_col0_apply (wf2 : ScatterDims.WF ⟨2, ![N, 2]⟩ ⟨2, ![E, 1]⟩ ⟨2, ![E, 2]⟩ [1] [0] [0] 1)
    (hc2 : Shape.Concatenates [⟨2, ![E, 1]⟩, ⟨2, ![E, 1]⟩] ⟨2, ![E, 2]⟩ 1) (n : Fin N) :
    Ideal.hostScatterAdd (rowScatterDims N 2 E wf2) (fun _ => z) idx
        (concatenate ⟨2, ![E, 2]⟩ 1 [⟨⟨2, ![E, 1]⟩, broadcastInDim ⟨2, ![E, 1]⟩ ![0] hbE C⟩,
          ⟨⟨2, ![E, 1]⟩, broadcastInDim ⟨2, ![E, 1]⟩ ![0] hbE S⟩] hc2) (ix2 n (0 : Fin 2))
      = z + ∑ e ∈ Finset.univ.filter (fun e : Fin E => (idx (ix2 e (0 : Fin 1))).toInt = (n.val : Int)), C (ix1 e) := by
  rw [scatterAdd_rows_apply]
  refine congrArg (z + ·) (Finset.sum_congr rfl fun e _ => ?_)
  rw [ConcatPair.cols_left _ _ hc2 e (0 : Fin 2) (0 : Fin 1) rfl, broadcastInDim_col_apply]

/-- Column 1 of the two-column accumulation at row `n`: the constant plus the sum of `S` over the same edges. -/
theorem stack2_col1_apply (wf2 : ScatterDims.WF ⟨2, ![N, 2]⟩ ⟨2, ![E, 1]⟩ ⟨2, ![E, 2]⟩ [1] [0] [0] 1)
    (hc2 : Shape.Concatenates [⟨2, ![E, 1]⟩, ⟨2, ![E, 1]⟩] ⟨2, ![E, 2]⟩ 1) (n : Fin N) :
    Ideal.hostScatterAdd (rowScatterDims N 2 E wf2) (fun _ => z) idx
        (concatenate ⟨2, ![E, 2]⟩ 1 [⟨⟨2, ![E, 1]⟩, broadcastInDim ⟨2, ![E, 1]⟩ ![0] hbE C⟩,
          ⟨⟨2, ![E, 1]⟩, broadcastInDim ⟨2, ![E, 1]⟩ ![0] hbE S⟩] hc2) (ix2 n (1 : Fin 2))
      = z + ∑ e ∈ Finset.univ.filter (fun e : Fin E => (idx (ix2 e (0 : Fin 1))).toInt = (n.val : Int)), S (ix1 e) := by
  rw [scatterAdd_rows_apply]
  refine congrArg (z + ·) (Finset.sum_congr rfl fun e _ => ?_)
  rw [ConcatPair.cols_right _ _ hc2 e (1 : Fin 2) (0 : Fin 1) rfl, broadcastInDim_col_apply]

/-- COLUMNS 0 AND 1 of the three-column accumulation, each cut out, flattened, stood up as a column again, and the
    two joined side by side, are the accumulation of the two-column matrix `[C | S]`. -/
theorem stack3_cols01_eq_stack2
    (hbN : (⟨1, ![N]⟩ : Shape).BroadcastsInDim ⟨2, ![N, 1]⟩ (![0] : Fin 1 → Fin 2))
    (wf3 : ScatterDims.WF ⟨2, ![N, 3]⟩ ⟨2, ![E, 1]⟩ ⟨2, ![E, 3]⟩ [1] [0] [0] 1)
    (wf2 : ScatterDims.WF ⟨2, ![N, 2]⟩ ⟨2, ![E, 1]⟩ ⟨2, ![E, 2]⟩ [1] [0] [0] 1)
    (hc3 : Shape.Concatenates [⟨2, ![E, 1]⟩, ⟨2, ![E, 1]⟩, ⟨2, ![E, 1]⟩] ⟨2, ![E, 3]⟩ 1)
    (hc2 : Shape.Concatenates [⟨2, ![E, 1]⟩, ⟨2, ![E, 1]⟩] ⟨2, ![E, 2]⟩ 1)
    (hs0 : (⟨2, ![N, 3]⟩ : Shape).Slices ![0, 0] ⟨2, ![N, 1]⟩)
    (hs1 : (⟨2, ![N, 3]⟩ : Shape).Slices ![0, 1] ⟨2, ![N, 1]⟩)
    (hsc : (⟨2, ![N, 1]⟩ : Shape).ShapeCasts ⟨1, ![N]⟩)
    (hcN2 : Shape.Concatenates [⟨2, ![N, 1]⟩, ⟨2, ![N, 1]⟩] ⟨2, ![N, 2]⟩ 1) :
    concatenate ⟨2, ![N, 2]⟩ 1
        [⟨⟨2, ![N, 1]⟩, broadcastInDim ⟨2, ![N, 1]⟩ ![0] hbN (shapeCast ⟨1, ![N]⟩ (extractStridedSlice ⟨2, ![N, 1]⟩ ![0, 0]
            (Ideal.hostScatterAdd (rowScatterDims N 3 E wf3) (fun _ => z) idx
              (concatenate ⟨2, ![E, 3]⟩ 1 [⟨⟨2, ![E, 1]⟩, broadcastInDim ⟨2, ![E, 1]⟩ ![0] hbE C⟩,
                ⟨⟨2, ![E, 1]⟩, broadcastInDim ⟨2, ![E, 1]⟩ ![0] hbE S⟩,
                ⟨⟨2, ![E, 1]⟩, broadcastInDim ⟨2, ![E, 1]⟩ ![0] hbE O⟩] hc3)) hs0) hsc)⟩,
         ⟨⟨2, ![N, 1]⟩, broadcastInDim ⟨2, ![N, 1]⟩ ![0] hbN (shapeCast ⟨1, ![N]⟩ (extractStridedSlice ⟨2, ![N, 1]⟩ ![0, 1]
            (Ideal.hostScatterAdd (rowScatterDims N 3 E wf3) (fun _ => z) idx
              (concatenate ⟨2, ![E, 3]⟩ 1 [⟨⟨2, ![E, 1]⟩, broadcastInDim ⟨2, ![E, 1]⟩ ![0] hbE C⟩,
                ⟨⟨2, ![E, 1]⟩, broadcastInDim ⟨2, ![E, 1]⟩ ![0] hbE S⟩,
                ⟨⟨2, ![E, 1]⟩, broadcastInDim ⟨2, ![E, 1]⟩ ![0] hbE O⟩] hc3)) hs1) hsc)⟩] hcN2
      = Ideal.hostScatterAdd (rowScatterDims N 2 E wf2) (fun _ => z) idx
          (concatenate ⟨2, ![E, 2]⟩ 1 [⟨⟨2, ![E, 1]⟩, broadcastInDim ⟨2, ![E, 1]⟩ ![0] hbE C⟩,
            ⟨⟨2, ![E, 1]⟩, broadcastInDim ⟨2, ![E, 1]⟩ ![0] hbE S⟩] hc2) := by
  funext j
  obtain ⟨n, c, rfl⟩ : ∃ (n : Fin N) (c : Fin 2), j = ix2 n c := ⟨j 0, j 1, eq_ix2 j⟩
  match c with
  | ⟨0, _⟩ =>
    refine (ConcatPair.cols_left _ _ hcN2 n _ (0 : Fin 1) rfl).trans ?_
    rw [col_cut_apply 0 _ hs0 hsc hbN n (0 : Fin 1) (0 : Fin 3) rfl, stack3_col0_apply]
    exact (stack2_col0_apply z idx C S hbE wf2 hc2 n).symm
  | ⟨1, _⟩ =>
    refine (ConcatPair.cols_right _ _ hcN2 n _ (0 : Fin 1) rfl).trans ?_
    rw [col_cut_apply 1 _ hs1 hsc hbN n (0 : Fin 1) (1 : Fin 3) rfl, stack3_col1_apply]
    exact (stack2_col1_apply z idx C S hbE wf2 hc2 n).symm

/-- COLUMN 2 of the three-column accumulation, cut out and flattened, is the accumulation of `O` into the constant
    vector. -/
theorem stack3_col2_eq_vec
    (wf3 : ScatterDims.WF ⟨2, ![N, 3]⟩ ⟨2, ![E, 1]⟩ ⟨2, ![E, 3]⟩ [1] [0] [0] 1)
    (wf1 : ScatterDims.WF ⟨1, ![N]⟩ ⟨2, ![E, 1]⟩ ⟨1, ![E]⟩ [] [0] [0] 1)
    (hc3 : Shape.Concatenates [⟨2, ![E, 1]⟩, ⟨2, ![E, 1]⟩, ⟨2, ![E, 1]⟩] ⟨2, ![E, 3]⟩ 1)
    (hs2 : (⟨2, ![N, 3]⟩ : Shape).Slices ![0, 2] ⟨2, ![N, 1]⟩)
    (hsc : (⟨2, ![N, 1]⟩ : Shape).ShapeCasts ⟨1, ![N]⟩) :
    shapeCast ⟨1, ![N]⟩ (extractStridedSlice ⟨2, ![N, 1]⟩ ![0, 2]
        (Ideal.hostScatterAdd (rowScatterDims N 3 E wf3) (fun _ => z) idx
          (concatenate ⟨2, ![E, 3]⟩ 1 [⟨⟨2, ![E, 1]⟩, broadcastInDim ⟨2, ![E, 1]⟩ ![0] hbE C⟩,
            ⟨⟨2, ![E, 1]⟩, broadcastInDim ⟨2, ![E, 1]⟩ ![0] hbE S⟩,
            ⟨⟨2, ![E, 1]⟩, broadcastInDim ⟨2, ![E, 1]⟩ ![0] hbE O⟩] hc3)) hs2) hsc
      = Ideal.hostScatterAdd (vecScatterDims N E wf1) (fun _ => z) idx O := by
  funext j
  obtain ⟨n, rfl⟩ : ∃ n : Fin N, j = ix1 n := ⟨j 0, eq_ix1 j⟩
  rw [shapeCast_col_apply, slice2_axis1_apply 2 _ hs2 n (0 : Fin 1) (2 : Fin 3) rfl, stack3_col2_apply,
    scatterAdd_vec_apply]

end Stack

end Cert.Lib

end
-- ==== Proof.Bridge.lean ====
/-
  The kernel program's torque is the reference's, as whole arrays over the extended reals; and so is the node velocity.

  1. ANGLE DIFFERENCES.  The kernel program reads the column θ flattened to a vector at the edges' wrapped source and
     destination integers; the reference reads the column θ itself through the pair (wrapped integer, 0).  Both read θ at
     (the wrapped integer clamped into [0, N − 1], 0), so the two difference vectors d are one vector.
  2. COSINE AND SINE.  The region leaves cos d and sin d laid out as a 125000 × 128 matrix, computed element by element;
     flattened back to a vector (a reshape there and back is the identity) they are cos d and sin d element by element,
     which is what the reference takes: over the extended reals the two programs' cosine (sine) are one function.
  3. ACCUMULATION.  The kernel program accumulates the three columns [cos d | sin d | 1] per destination node into an
     [N, 3] array from zero; the reference accumulates [cos d | sin d] into [N, 2] and the ones into a vector [N].  The
     columns of an accumulation do not mix: columns 0 and 1 of the former are the reference's [N, 2] array and column 2
     is its count vector.
  4. MEAN, NORM, SCALING.  From there on the two programs apply the same operations to the same arrays.
-/
import proofs.«125133_j10599979287287_2_alg».proof.Proof.Terms
import proofs.«125133_j10599979287287_2_alg».proof.Proof.LibEdgeStack
import Idealize.ShloMosaic.Lib.Pipeline.Value
import Idealize.ShloMosaic.PureOps.Ideal

noncomputable section

namespace Cert.Bridge

open Idealize.ShloMosaic Idealize.ShloMosaic.ValueIdx Cert.Lib
open Cert.KernelIdeal Cert.KernelIdeal.Gen

/-! ## 1. The angle differences -/

/-- ONE GATHER.  The flattened column read at the wrapped integers is the column read through the pair (wrapped
    integer, 0): both are θ at (the wrapped integer clamped, 0). -/
theorem gatherK_eq_gatherR (θ : FVec Ideal S500000x1 .f32) (i : IVec S16000000 32) :
    Host.gather gather_S500000_S16000000x1_S16000000_n_0_n_n_0_1_1
        (fun i => shapeCast S500000 θ shapeCasts_S500000x1_S500000 i)
        (broadcastInDim S16000000x1 ![0] bcast_S16000000_S16000000x1_0 (wrapK i))
      = Host.gather Cert.ReferenceIdeal.gather_S500000x1_S16000000x2_S16000000_n_01_n_n_01_1_11 θ (pairR i) := by
  funext j
  obtain ⟨e, rfl⟩ : ∃ e : Fin 16000000, j = ix1 e := ⟨j 0, eq_ix1 j⟩
  have key := gather_pair_concat_eq_gather_vec (N := 500000) (E := 16000000)
    Cert.ReferenceIdeal.Gen.gather_S500000x1_S16000000x2_S16000000_n_01_n_n_01_1_11_wf
    gather_S500000_S16000000x1_S16000000_n_0_n_n_0_1_1_wf θ
    (broadcastInDim S16000000x1 ![0] bcast_S16000000_S16000000x1_0 (wrapK i))
    (broadcastInDim S16000000x1 ![0] bcast_S16000000_S16000000x1_0
      (broadcastInDim S16000000 ![] bcast_S_S16000000 (constantI S_ 32 0#32)))
    Cert.ReferenceIdeal.Gen.concatenates_S16000000x1_S16000000x1_S16000000x2_d1 shapeCasts_S500000x1_S500000 e
  exact key.symm

/-- THE DIFFERENCES of the two programs are one vector. -/
theorem diff_eq (θ : FVec Ideal S500000x1 .f32) (src dst : IVec S16000000 32) : diffK θ src dst = diffR θ src dst := by
  have h1 := gatherK_eq_gatherR θ src
  have h2 := gatherK_eq_gatherR θ dst
  unfold diffK diffR
  rw [h1, h2]

/-! ## 2. Cosine and sine, laid out as a matrix and flattened back -/

/-- The cosines of the matrix layout of `D`, flattened back, are the cosines of `D`. -/
theorem flat_cos (D : FVec Ideal S16000000 .f32) :
    shapeCast S16000000 (fun j => FloatOps.cos (shapeCast S125000x128 D shapeCasts_S16000000_S125000x128 j))
        shapeCasts_S125000x128_S16000000
      = Host.cos D := by
  funext e
  exact congrArg Ideal.cos
    (congrFun (shapeCast_shapeCast D shapeCasts_S16000000_S125000x128 shapeCasts_S125000x128_S16000000) e)

/-- The sines of the matrix layout of `D`, flattened back, are the sines of `D`. -/
theorem flat_sin (D : FVec Ideal S16000000 .f32) :
    shapeCast S16000000 (fun j => FloatOps.sin (shapeCast S125000x128 D shapeCasts_S16000000_S125000x128 j))
        shapeCasts_S125000x128_S16000000
      = Host.sin D := by
  funext e
  exact congrArg Ideal.sin
    (congrFun (shapeCast_shapeCast D shapeCasts_S16000000_S125000x128 shapeCasts_S125000x128_S16000000) e)

/-! ## 3. The accumulation -/

/-- The three columns `[C | S | 1]` accumulated per destination node into `[N, 3]` from zero. -/
def stack3 (C S : FVec Ideal S16000000 .f32) (dst : IVec S16000000 32) : FVec Ideal S500000x3 .f32 :=
  Ideal.hostScatterAdd (rowScatterDims 500000 3 16000000 scatter_S500000x3_S16000000x1_S16000000x3_1_0_0_1_wf)
    (fun _ => Ideal.ofBits .f32 0x00000000#32)
    (broadcastInDim S16000000x1 ![0] bcast_S16000000_S16000000x1_0 dst)
    (concatenate S16000000x3 1
      [⟨S16000000x1, broadcastInDim S16000000x1 ![0] bcast_S16000000_S16000000x1_0 C⟩,
       ⟨S16000000x1, broadcastInDim S16000000x1 ![0] bcast_S16000000_S16000000x1_0 S⟩,
       ⟨S16000000x1, broadcastInDim S16000000x1 ![0] bcast_S16000000_S16000000x1_0
          (broadcastInDim S16000000 ![] bcast_S_S16000000 (constant (F := Ideal) S_ .f32 0x3F800000#32))⟩]
      concatenates_S16000000x1_S16000000x1_S16000000x1_S16000000x3_d1)

/-- The kernel program's accumulated array, from the region's cosine and sine matrices of `D`, is the accumulation of
    `[cos D | sin D | 1]`. -/
theorem sumsK_eq_stack3 (D : FVec Ideal S16000000 .f32) (dst : IVec S16000000 32) :
    sumsK (fun i => FloatOps.cos (shapeCast S125000x128 D shapeCasts_S16000000_S125000x128 i))
        (fun i => FloatOps.sin (shapeCast S125000x128 D shapeCasts_S16000000_S125000x128 i)) dst
      = stack3 (Host.cos D) (Host.sin D) dst := by
  rw [← flat_cos D, ← flat_sin D]
  rfl

/-- Columns 0 and 1 of an `[N, 3]` array, each cut out, flattened and stood up as a column, joined side by side. -/
def pick01 (X : FVec Ideal S500000x3 .f32) : FVec Ideal S500000x2 .f32 :=
  concatenate S500000x2 1
    [⟨S500000x1, broadcastInDim S500000x1 ![0] bcast_S500000_S500000x1_0 (colK 0 X slices_S500000x3_S500000x1_0_0)⟩,
     ⟨S500000x1, broadcastInDim S500000x1 ![0] bcast_S500000_S500000x1_0 (colK 1 X slices_S500000x3_S500000x1_0_1)⟩]
    concatenates_S500000x1_S500000x1_S500000x2_d1

/-- COLUMNS 0 AND 1 of the three-column accumulation are the reference's accumulated messages. -/
theorem pick01_stack3 (D : FVec Ideal S16000000 .f32) (dst : IVec S16000000 32) :
    pick01 (stack3 (Host.cos D) (Host.sin D) dst) = sumsR D dst := by
  have key := stack3_cols01_eq_stack2 (N := 500000) (E := 16000000) (Ideal.ofBits .f32 0x00000000#32)
    (broadcastInDim S16000000x1 ![0] bcast_S16000000_S16000000x1_0 dst) (Host.cos D) (Host.sin D)
    (broadcastInDim S16000000 ![] bcast_S_S16000000 (constant (F := Ideal) S_ .f32 0x3F800000#32))
    bcast_S16000000_S16000000x1_0 bcast_S500000_S500000x1_0
    scatter_S500000x3_S16000000x1_S16000000x3_1_0_0_1_wf
    Cert.ReferenceIdeal.Gen.scatter_S500000x2_S16000000x1_S16000000x2_1_0_0_1_wf
    concatenates_S16000000x1_S16000000x1_S16000000x1_S16000000x3_d1
    Cert.ReferenceIdeal.Gen.concatenates_S16000000x1_S16000000x1_S16000000x2_d1
    slices_S500000x3_S500000x1_0_0 slices_S500000x3_S500000x1_0_1 shapeCasts_S500000x1_S500000
    concatenates_S500000x1_S500000x1_S500000x2_d1
  exact key

/-- COLUMN 2 of the three-column accumulation is the reference's count. -/
theorem col2_stack3 (C S : FVec Ideal S16000000 .f32) (dst : IVec S16000000 32) :
    colK 2 (stack3 C S dst) slices_S500000x3_S500000x1_0_2 = countR dst := by
  have key := stack3_col2_eq_vec (N := 500000) (E := 16000000) (Ideal.ofBits .f32 0x00000000#32)
    (broadcastInDim S16000000x1 ![0] bcast_S16000000_S16000000x1_0 dst) C S
    (broadcastInDim S16000000 ![] bcast_S_S16000000 (constant (F := Ideal) S_ .f32 0x3F800000#32))
    bcast_S16000000_S16000000x1_0
    scatter_S500000x3_S16000000x1_S16000000x3_1_0_0_1_wf
    Cert.ReferenceIdeal.Gen.scatter_S500000_S16000000x1_S16000000_n_0_0_1_wf
    concatenates_S16000000x1_S16000000x1_S16000000x1_S16000000x3_d1
    slices_S500000x3_S500000x1_0_2 shapeCasts_S500000x1_S500000
  exact key

/-! ## 4. Mean, norm and scaling; the torque; the velocity -/

/-- The kernel program's mean message is the reference's mean of the picked columns 0, 1 over column 2. -/
theorem meanK_eq (X : FVec Ideal S500000x3 .f32) :
    meanK X = meanR (pick01 X) (colK 2 X slices_S500000x3_S500000x1_0_2) := rfl

/-- From the mean message on, the two programs apply the same operations. -/
theorem torqueOfMeanK_eq (Q : FVec Ideal S500000x2 .f32) (w₀ : FVec Ideal S_ .f32) :
    torqueOfMeanK Q w₀ = torqueOfMeanR Q w₀ := rfl

/-- The kernel program's torque from the region's cosine and sine matrices of ANY difference vector `D` is the
    reference's torque computed from `D`. -/
theorem torque_of_diff (D : FVec Ideal S16000000 .f32) (dst : IVec S16000000 32) (w₀ : FVec Ideal S_ .f32) :
    torqueK (fun i => FloatOps.cos (shapeCast S125000x128 D shapeCasts_S16000000_S125000x128 i))
        (fun i => FloatOps.sin (shapeCast S125000x128 D shapeCasts_S16000000_S125000x128 i)) dst w₀
      = torqueOfMeanR (meanR (sumsR D dst) (countR dst)) w₀ := by
  unfold torqueK
  rw [torqueOfMeanK_eq, meanK_eq, sumsK_eq_stack3, pick01_stack3, col2_stack3]

/-- THE TORQUE of the kernel program, from what the region leaves, is the reference's. -/
theorem torque_eq (θ : FVec Ideal S500000x1 .f32) (src dst : IVec S16000000 32) (w₀ : FVec Ideal S_ .f32) :
    torqueK
        (fun i => FloatOps.cos (shapeCast S125000x128 (diffK θ src dst) shapeCasts_S16000000_S125000x128 i))
        (fun i => FloatOps.sin (shapeCast S125000x128 (diffK θ src dst) shapeCasts_S16000000_S125000x128 i)) dst w₀
      = torqueR θ src dst w₀ := by
  rw [diff_eq θ src dst]
  exact torque_of_diff (diffR θ src dst) dst w₀

/-- THE VELOCITY of the kernel program is the reference's: the same operations on the same arrays. -/
theorem vel_eq (θ : FVec Ideal S500000x1 .f32) (v₀ : FVec Ideal S_ .f32) :
    velK θ v₀
      = mulf (broadcastInDim Cert.ReferenceIdeal.S500000x2 ![] Cert.ReferenceIdeal.Gen.bcast_S_S500000x2 v₀)
          (concatenate Cert.ReferenceIdeal.S500000x2 1
            [⟨Cert.ReferenceIdeal.S500000x1, Host.cos θ⟩, ⟨Cert.ReferenceIdeal.S500000x1, Host.sin θ⟩]
            Cert.ReferenceIdeal.Gen.concatenates_S500000x1_S500000x1_S500000x2_d1) := rfl

end Cert.Bridge

end
-- ==== Proof.lean ====
/-
  The certificate of the edge-message kernel against its reference.

  Both programs compute, from the node angles θ and the edge lists src, dst, the node velocity v₀ · [cos θ, sin θ] and
  the torque w₀ · (second component of the normalised mean message), the mean taken per destination node over the
  messages [cos d, sin d] of its incoming edges, d = θ[src] − θ[dst].  The kernel program forms d on the host, computes
  cos d and sin d in one region over 25 row bands, and accumulates [cos d, sin d, 1] in ONE pass; the reference
  accumulates [cos d, sin d] and the count 1 in two passes.  Over the extended reals an accumulation is a sum over the
  edges landing at the node, so columns 0 and 1 of the three-column accumulation are the two-column accumulation and
  column 2 is the count; everything after that is the same composition of operations.

  The three frames: the two kernel programs' runs (the region's body stores through whole blocks and the launch
  arrays are written by no operation) and the reference's run.  The idealized kernel program is the kernel program
  itself, operation for operation, so the idealization claim has no conjunct.
-/
import proofs.«125133_j10599979287287_2_alg».proof.Defs
import proofs.«125133_j10599979287287_2_alg».proof.Proof.Gen.Kernel
import proofs.«125133_j10599979287287_2_alg».proof.Proof.Gen.KernelIdeal
import proofs.«125133_j10599979287287_2_alg».proof.Proof.Gen.ReferenceIdeal
import proofs.«125133_j10599979287287_2_alg».proof.Proof.Gen.Pre_finite_inputs
import proofs.«125133_j10599979287287_2_alg».proof.Proof.RegionWord
import proofs.«125133_j10599979287287_2_alg».proof.Proof.AfterRegion
import proofs.«125133_j10599979287287_2_alg».proof.Proof.ReferenceTerms
import proofs.«125133_j10599979287287_2_alg».proof.Proof.Bridge

noncomputable section

namespace Cert.Proof

open Idealize.ShloMosaic Idealize.ShloMosaic.TcCoe Idealize.SL.Sem

theorem frame_word : Cert.frame_Kernel (hKernel := Cert.Kernel.Gen.facts) (hPre_finite_inputs := Cert.Pre_finite_inputs.Gen.facts) :=
  fun m ρ _ => Cert.Kernel.Region.frame m ρ

theorem frame_ideal : Cert.frame_KernelIdeal (hKernelIdeal := Cert.KernelIdeal.Gen.facts) (hPre_finite_inputs := Cert.Pre_finite_inputs.Gen.facts) :=
  fun m ρ _ => Cert.KernelIdeal.Region.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Both runs end with the velocity at the kernel-side velocity term and the torque at the reference-side torque term
    of the shared arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Bridge.velK (m ((c.tc : Thread _ _).loc Cert.KernelIdeal.main_arg0)) (m ((c.tc : Thread _ _).loc Cert.KernelIdeal.main_arg3)),
    fun c => Cert.Bridge.torqueR (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg4)), ?_, ?_⟩
  · refine (θ_run Cert.KernelIdeal.defs _ _).mono (fun _ h c => ⟨(h c).1, (h c).2.1.trans ?_, (h c).2.2⟩)
      (Cert.KernelIdeal.Region.run_values m ρ)
    exact Cert.Bridge.torque_eq _ _ _ _
  · refine (θ_run Cert.ReferenceIdeal.defs _ _).mono (fun _ h c => ⟨(h c).1.trans ?_, (h c).2.1.trans ?_, (h c).2.2⟩)
      (Cert.ReferenceIdeal.Value.run (F := Ideal) m' ρ')
    · rw [(hagree c).1, (hagree c).2.2.2.1]
      exact (Cert.Bridge.vel_eq _ _).symm
    · rw [Cert.ReferenceIdeal.RefValue.torque_term, (hagree c).1, (hagree c).2.1, (hagree c).2.2.1, (hagree c).2.2.2.2]

theorem claim : Cert.Claim := ⟨Cert.Kernel.Gen.facts, Cert.KernelIdeal.Gen.facts, Cert.ReferenceIdeal.Gen.facts, Cert.Pre_finite_inputs.Gen.facts,
  frame_word, frame_ideal, frame_reference, trivial, algebraic⟩

end Cert.Proof

end
